-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x16384 : Shape := ⟨3, ![128, 64, 16384]⟩
abbrev S10000x1000 : Shape := ⟨2, ![10000, 1000]⟩
abbrev S8192x1000 : Shape := ⟨2, ![8192, 1000]⟩
abbrev S_ : Shape := ⟨0, ![]⟩

class Facts : Prop where
  bcast_S_S128x64x16384 : S_.BroadcastsInDim S128x64x16384 (![] : Fin 0 → Fin S128x64x16384.rank)
  reducesTo_S128x64x16384_S_d0_1_2 : S128x64x16384.ReducesTo [0, 1, 2] S_
  h_S_ : 0 < S_.numel

variable [Facts]

def fn {F : FTy → Type} [FloatOps F] (main_arg0 : FVec F S128x64x16384 .f32) (main_arg1 : IVec S10000x1000 32) (main_arg2 : IVec S8192x1000 32) : IVec S_ 1 :=
  let main_v0 : FVec F S128x64x16384 .f32 := Host.absf main_arg0
  let main_cst : FVec F S_ .f32 := constant S_ .f32 0x7F800000#32
  let main_v1 : FVec F S128x64x16384 .f32 := broadcastInDim S128x64x16384 ![] bcast_S_S128x64x16384 main_cst
  let main_v2 : IVec S128x64x16384 1 := cmpf .olt main_v0 main_v1
  let main_c : IVec S_ 1 := constantI S_ 1 1#1
  let main_v3 : IVec S_ 1 := (fun x v => Host.reduce IntOp.andi x v reducesTo_S128x64x16384_S_d0_1_2 h_S_) main_v2 main_c
  main_v3
-- ==== Kernel.lean ====
abbrev S128x64x16384 : Shape := ⟨3, ![128, 64, 16384]⟩
abbrev S10000x1000 : Shape := ⟨2, ![10000, 1000]⟩
abbrev S8192x1000 : Shape := ⟨2, ![8192, 1000]⟩
abbrev S128x128 : Shape := ⟨2, ![128, 128]⟩
abbrev S8x64x2048 : Shape := ⟨3, ![8, 64, 2048]⟩
abbrev S8x128 : Shape := ⟨2, ![8, 128]⟩
abbrev S8x64x64 : Shape := ⟨3, ![8, 64, 64]⟩
abbrev S8x64 : Shape := ⟨2, ![8, 64]⟩
abbrev S8 : Shape := ⟨1, ![8]⟩
abbrev S64x64 : Shape := ⟨2, ![64, 64]⟩
abbrev S1x64x64 : Shape := ⟨3, ![1, 64, 64]⟩
abbrev S8x1 : Shape := ⟨2, ![8, 1]⟩
abbrev S128x1 : Shape := ⟨2, ![128, 1]⟩
abbrev S128 : Shape := ⟨1, ![128]⟩
abbrev S_ : Shape := ⟨0, ![]⟩
abbrev S1000 : Shape := ⟨1, ![1000]⟩
abbrev S1000x1 : Shape := ⟨2, ![1000, 1]⟩

abbrev nBuf : Space → Nat
  | .hbm => 57
  | .vmem => 5
  | .smem => 0
  | _ => 0

abbrev bufTy : (tb : Table) → Fin (tcTables nBuf tb) → BufTy
  | .hbm, ⟨0, _⟩ => ⟨S128x64x16384, .f32⟩
  | .hbm, ⟨1, _⟩ => ⟨S10000x1000, .i32⟩
  | .hbm, ⟨2, _⟩ => ⟨S8192x1000, .i32⟩
  | .hbm, ⟨3, _⟩ => ⟨S128x128, .f32⟩
  | .hbm, ⟨4, _⟩ => ⟨S128x1, .f32⟩
  | .hbm, ⟨5, _⟩ => ⟨S128, .f32⟩
  | .hbm, ⟨6, _⟩ => ⟨S8192x1000, .i32⟩
  | .hbm, ⟨7, _⟩ => ⟨S_, .i32⟩
  | .hbm, ⟨8, _⟩ => ⟨S_, .i32⟩
  | .hbm, ⟨9, _⟩ => ⟨S1000, .i32⟩
  | .hbm, ⟨10, _⟩ => ⟨S1000, .i32⟩
  | .hbm, ⟨11, _⟩ => ⟨S_, .i32⟩
  | .hbm, ⟨12, _⟩ => ⟨S_, .i32⟩
  | .hbm, ⟨13, _⟩ => ⟨S1000, .i32⟩
  | .hbm, ⟨14, _⟩ => ⟨S1000, .i32⟩
  | .hbm, ⟨15, _⟩ => ⟨S1000, .i32⟩
  | .hbm, ⟨16, _⟩ => ⟨S_, .i32⟩
  | .hbm, ⟨17, _⟩ => ⟨S1000, .i32⟩
  | .hbm, ⟨18, _⟩ => ⟨S1000, .i1⟩
  | .hbm, ⟨19, _⟩ => ⟨S1000, .i32⟩
  | .hbm, ⟨20, _⟩ => ⟨S1000, .i32⟩
  | .hbm, ⟨21, _⟩ => ⟨S_, .i32⟩
  | .hbm, ⟨22, _⟩ => ⟨S1000, .i32⟩
  | .hbm, ⟨23, _⟩ => ⟨S1000, .i1⟩
  | .hbm, ⟨24, _⟩ => ⟨S1000, .i1⟩
  | .hbm, ⟨25, _⟩ => ⟨S_, .i32⟩
  | .hbm, ⟨26, _⟩ => ⟨S1000, .i32⟩
  | .hbm, ⟨27, _⟩ => ⟨S1000, .i32⟩
  | .hbm, ⟨28, _⟩ => ⟨S1000, .i32⟩
  | .hbm, ⟨29, _⟩ => ⟨S_, .i32⟩
  | .hbm, ⟨30, _⟩ => ⟨S1000, .i32⟩
  | .hbm, ⟨31, _⟩ => ⟨S_, .i32⟩
  | .hbm, ⟨32, _⟩ => ⟨S1000, .i32⟩
  | .hbm, ⟨33, _⟩ => ⟨S1000, .i1⟩
  | .hbm, ⟨34, _⟩ => ⟨S_, .i32⟩
  | .hbm, ⟨35, _⟩ => ⟨S1000, .i32⟩
  | .hbm, ⟨36, _⟩ => ⟨S1000, .i1⟩
  | .hbm, ⟨37, _⟩ => ⟨S_, .i32⟩
  | .hbm, ⟨38, _⟩ => ⟨S1000, .i32⟩
  | .hbm, ⟨39, _⟩ => ⟨S1000, .i32⟩
  | .hbm, ⟨40, _⟩ => ⟨S1000, .i32⟩
  | .hbm, ⟨41, _⟩ => ⟨S1000x1, .i32⟩
  | .hbm, ⟨42, _⟩ => ⟨S1000, .f32⟩
  | .hbm, ⟨43, _⟩ => ⟨S_, .f32⟩
  | .hbm, ⟨44, _⟩ => ⟨S_, .f32⟩
  | .hbm, ⟨45, _⟩ => ⟨S1000, .f32⟩
  | .hbm, ⟨46, _⟩ => ⟨S1000, .f32⟩
  | .hbm, ⟨47, _⟩ => ⟨S_, .f32⟩
  | .hbm, ⟨48, _⟩ => ⟨S_, .f32⟩
  | .hbm, ⟨49, _⟩ => ⟨S1000, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .f32⟩
  | .hbm, ⟨55, _⟩ => ⟨S_, .f32⟩
  | .hbm, ⟨56, _⟩ => ⟨S_, .f32⟩
  | .local _ .vmem, ⟨0, _⟩ => ⟨S8x64x2048, .f32⟩
  | .local _ .vmem, ⟨1, _⟩ => ⟨S8x64x2048, .f32⟩
  | .local _ .vmem, ⟨2, _⟩ => ⟨S8x128, .f32⟩
  | .local _ .vmem, ⟨3, _⟩ => ⟨S8x128, .f32⟩
  | .local _ .vmem, ⟨4, _⟩ => ⟨S8x64x64, .f32⟩
  | _, _ => ⟨S128x64x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_c : Ref sig .tc := ⟨.hbm, 7, rfl⟩
abbrev main_call0_c_0 : Ref sig .tc := ⟨.hbm, 8, rfl⟩
abbrev main_call0_v1_0 : Ref sig .tc := ⟨.hbm, 9, rfl⟩
abbrev main_v3 : Ref sig .tc := ⟨.hbm, 10, rfl⟩
abbrev main_c : Ref sig .tc := ⟨.hbm, 11, rfl⟩
abbrev main_call1_v0 : Ref sig .tc := ⟨.hbm, 12, rfl⟩
abbrev main_call1_v1 : Ref sig .tc := ⟨.hbm, 13, rfl⟩
abbrev main_call1_v2 : Ref sig .tc := ⟨.hbm, 14, rfl⟩
abbrev main_call1_v3 : Ref sig .tc := ⟨.hbm, 15, rfl⟩
abbrev main_call1_v4 : Ref sig .tc := ⟨.hbm, 16, rfl⟩
abbrev main_call1_v5 : Ref sig .tc := ⟨.hbm, 17, rfl⟩
abbrev main_call1_v6 : Ref sig .tc := ⟨.hbm, 18, rfl⟩
abbrev main_call1_v7 : Ref sig .tc := ⟨.hbm, 19, rfl⟩
abbrev main_call1_v8 : Ref sig .tc := ⟨.hbm, 20, rfl⟩
abbrev main_call1_c : Ref sig .tc := ⟨.hbm, 21, rfl⟩
abbrev main_call1_v9 : Ref sig .tc := ⟨.hbm, 22, rfl⟩
abbrev main_call1_v10 : Ref sig .tc := ⟨.hbm, 23, rfl⟩
abbrev main_call1_v11 : Ref sig .tc := ⟨.hbm, 24, rfl⟩
abbrev main_call1_c_0 : Ref sig .tc := ⟨.hbm, 25, rfl⟩
abbrev main_call1_v12 : Ref sig .tc := ⟨.hbm, 26, rfl⟩
abbrev main_call1_v13 : Ref sig .tc := ⟨.hbm, 27, rfl⟩
abbrev main_v4 : Ref sig .tc := ⟨.hbm, 28, rfl⟩
abbrev main_c_0 : Ref sig .tc := ⟨.hbm, 29, rfl⟩
abbrev main_v5 : Ref sig .tc := ⟨.hbm, 30, rfl⟩
abbrev main_c_1 : Ref sig .tc := ⟨.hbm, 31, rfl⟩
abbrev main_v6 : Ref sig .tc := ⟨.hbm, 32, rfl⟩
abbrev main_v7 : Ref sig .tc := ⟨.hbm, 33, rfl⟩
abbrev main_c_2 : Ref sig .tc := ⟨.hbm, 34, rfl⟩
abbrev main_v8 : Ref sig .tc := ⟨.hbm, 35, rfl⟩
abbrev main_v9 : Ref sig .tc := ⟨.hbm, 36, rfl⟩
abbrev main_c_3 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_cst : Ref sig .tc := ⟨.hbm, 43, rfl⟩
abbrev main_call2_v0 : Ref sig .tc := ⟨.hbm, 44, rfl⟩
abbrev main_call2_v1 : Ref sig .tc := ⟨.hbm, 45, rfl⟩
abbrev main_v15 : Ref sig .tc := ⟨.hbm, 46, rfl⟩
abbrev main_cst_4 : Ref sig .tc := ⟨.hbm, 47, rfl⟩
abbrev main_v16 : Ref sig .tc := ⟨.hbm, 48, rfl⟩
abbrev main_v17 : Ref sig .tc := ⟨.hbm, 49, rfl⟩
abbrev main_c_5 : Ref sig .tc := ⟨.hbm, 50, rfl⟩
abbrev main_v18 : Ref sig .tc := ⟨.hbm, 51, rfl⟩
abbrev main_c_6 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_10 : BitVec 32 := 0#32
  let v17 : BitVec 1 := Scalar.cmpi .ne v16 c0_i32_10
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x64x64_S8x64x64_0_0_0 : ∀ a, (![0, 0, 0] : Fin 3 → Nat) a + S8x64x64.size a ≤ S8x64x64.size a
  h_S8x64x64 : 0 < S8x64x64.numel
  shapeCasts_S8x64x64_S8x64x64 : S8x64x64.ShapeCasts S8x64x64
  inb_S8x64x2048_S8x64x2048_0_0_0 : ∀ a, (![0, 0, 0] : Fin 3 → Nat) a + S8x64x2048.size a ≤ S8x64x2048.size a
  h_S8x64x2048 : 0 < S8x64x2048.numel
  bitsLt_bf16_f32 : FTy.bits .bf16 < FTy.bits .f32
  reduces_S8x64x64_S8x64 : S8x64x64.Reduces [2] S8x64
  reduces_S8x64_S8 : S8x64.Reduces [1] S8
  iota_S64x64_d0_w32 : S64x64.Iotas .tc 32 [0]
  iota_S64x64_d1_w32 : S64x64.Iotas .tc 32 [1]
  natLt_1_32 : 1 < 32
  shapeCasts_S64x64_S1x64x64 : S64x64.ShapeCasts S1x64x64
  shapeCasts_S1x64x64_S1x64x64 : S1x64x64.ShapeCasts S1x64x64
  broadcasts_S1x64x64_S8x64x64 : S1x64x64.Broadcasts S8x64x64
  shapeCasts_S8_S8x1 : S8.ShapeCasts S8x1
  shapeCasts_S8x1_S8x1 : S8x1.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S128x128_S128x1_0_0 : S128x128.Slices ![0, 0] S128x1
  shapeCasts_S128x1_S128 : S128x1.ShapeCasts S128
  reducesTo_S8192x1000_S1000_d0 : S8192x1000.ReducesTo [0] S1000
  h_S_ : 0 < S_.numel
  bcast_S_S1000 : S_.BroadcastsInDim S1000 (![] : Fin 0 → Fin S1000.rank)
  reducesTo_S10000x1000_S1000_d0 : S10000x1000.ReducesTo [0] S1000
  bcast_S1000_S1000x1_0 : S1000.BroadcastsInDim S1000x1 (![0] : Fin 1 → Fin S1000x1.rank)
  reducesTo_S1000_S_d0 : S1000.ReducesTo [0] S_
  dot_S8x64x2048_S8x64x2048_S8x64x64_2_2_1_1_0_0_wf : DotDims.WF S8x64x2048 S8x64x2048 S8x64x64 [2] [2] [1] [1] [0] [0]
  gather_S128_S1000x1_S1000_n_0_n_n_0_1_1_wf : GatherDims.WF S128 S1000x1 S1000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x2048.size a ≤ S128x64x16384.size a
  hwx0_0 : ∀ i : grid0.Coords, EltTy.bits .f32 = 32 ∨ (Rect.block (s := S128x64x16384) S8x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S128x128.size a
  hwx0_1 : ∀ i : grid0.Coords, EltTy.bits .f32 = 32 ∨ (Rect.block (s := S128x128) S8x128.size (cc0_transform_1 i) (hinb0_1 i)).WholeWords (EltTy.packing .f32)

variable [Facts₀]

def dot_S8x64x2048_S8x64x2048_S8x64x64_2_2_1_1_0_0 : DotDims S8x64x2048 S8x64x2048 S8x64x64 where
  lhsContracting := [2]
  rhsContracting := [2]
  lhsNonContracting := [1]
  rhsNonContracting := [1]
  lhsBatch := [0]
  rhsBatch := [0]
  wf := dot_S8x64x2048_S8x64x2048_S8x64x64_2_2_1_1_0_0_wf
def reducer_argmax_i32_i32 : BitVec 32 × BitVec 32 → BitVec 32 × BitVec 32 → BitVec 32 × BitVec 32 :=
  fun a b =>
    let v2 := IntOp.cmpi .sgt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S128_S1000x1_S1000_n_0_n_n_0_1_1 : GatherDims S128 S1000x1 S1000 where
  offsetDims := []
  collapsedSliceDims := [0]
  operandBatchingDims := []
  startIndicesBatchingDims := []
  startIndexMap := [0]
  indexVectorDim := 1
  sliceSizes := ![1]
  wf := gather_S128_S1000x1_S1000_n_0_n_n_0_1_1_wf

abbrev win0_0 : Pipeline.Window sig grid0 :=
  Pipeline.Window.ofSpec (Memref.whole main_arg0) S8x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S128x64x16384 : Shape := ⟨3, ![128, 64, 16384]⟩
abbrev S10000x1000 : Shape := ⟨2, ![10000, 1000]⟩
abbrev S8192x1000 : Shape := ⟨2, ![8192, 1000]⟩
abbrev S_ : Shape := ⟨0, ![]⟩
abbrev S128x64x64 : Shape := ⟨3, ![128, 64, 64]⟩
abbrev S128 : Shape := ⟨1, ![128]⟩
abbrev S64x64 : Shape := ⟨2, ![64, 64]⟩
abbrev S1000 : Shape := ⟨1, ![1000]⟩
abbrev S1000x1 : Shape := ⟨2, ![1000, 1]⟩

abbrev nBuf : Space → Nat
  | .hbm => 72
  | .vmem => 0
  | .smem => 0
  | _ => 0

abbrev bufTy : (tb : Table) → Fin (tcTables nBuf tb) → BufTy
  | .hbm, ⟨0, _⟩ => ⟨S128x64x16384, .f32⟩
  | .hbm, ⟨1, _⟩ => ⟨S10000x1000, .i32⟩
  | .hbm, ⟨2, _⟩ => ⟨S8192x1000, .i32⟩
  | .hbm, ⟨3, _⟩ => ⟨S_, .f32⟩
  | .hbm, ⟨4, _⟩ => ⟨S128x64x16384, .f32⟩
  | .hbm, ⟨5, _⟩ => ⟨S128x64x16384, .f32⟩
  | .hbm, ⟨6, _⟩ => ⟨S128x64x16384, .f32⟩
  | .hbm, ⟨7, _⟩ => ⟨S128x64x64, .f32⟩
  | .hbm, ⟨8, _⟩ => ⟨S_, .f32⟩
  | .hbm, ⟨9, _⟩ => ⟨S128, .f32⟩
  | .hbm, ⟨10, _⟩ => ⟨S64x64, .i32⟩
  | .hbm, ⟨11, _⟩ => ⟨S64x64, .i32⟩
  | .hbm, ⟨12, _⟩ => ⟨S64x64, .i1⟩
  | .hbm, ⟨13, _⟩ => ⟨S128x64x64, .i1⟩
  | .hbm, ⟨14, _⟩ => ⟨S_, .f32⟩
  | .hbm, ⟨15, _⟩ => ⟨S128x64x64, .f32⟩
  | .hbm, ⟨16, _⟩ => ⟨S128x64x64, .f32⟩
  | .hbm, ⟨17, _⟩ => ⟨S_, .f32⟩
  | .hbm, ⟨18, _⟩ => ⟨S128, .f32⟩
  | .hbm, ⟨19, _⟩ => ⟨S128, .f32⟩
  | .hbm, ⟨20, _⟩ => ⟨S128, .f32⟩
  | .hbm, ⟨21, _⟩ => ⟨S8192x1000, .i32⟩
  | .hbm, ⟨22, _⟩ => ⟨S_, .i32⟩
  | .hbm, ⟨23, _⟩ => ⟨S_, .i32⟩
  | .hbm, ⟨24, _⟩ => ⟨S1000, .i32⟩
  | .hbm, ⟨25, _⟩ => ⟨S1000, .i32⟩
  | .hbm, ⟨26, _⟩ => ⟨S_, .i32⟩
  | .hbm, ⟨27, _⟩ => ⟨S_, .i32⟩
  | .hbm, ⟨28, _⟩ => ⟨S1000, .i32⟩
  | .hbm, ⟨29, _⟩ => ⟨S1000, .i32⟩
  | .hbm, ⟨30, _⟩ => ⟨S1000, .i32⟩
  | .hbm, ⟨31, _⟩ => ⟨S_, .i32⟩
  | .hbm, ⟨32, _⟩ => ⟨S1000, .i32⟩
  | .hbm, ⟨33, _⟩ => ⟨S1000, .i1⟩
  | .hbm, ⟨34, _⟩ => ⟨S1000, .i32⟩
  | .hbm, ⟨35, _⟩ => ⟨S1000, .i32⟩
  | .hbm, ⟨36, _⟩ => ⟨S_, .i32⟩
  | .hbm, ⟨37, _⟩ => ⟨S1000, .i32⟩
  | .hbm, ⟨38, _⟩ => ⟨S1000, .i1⟩
  | .hbm, ⟨39, _⟩ => ⟨S1000, .i1⟩
  | .hbm, ⟨40, _⟩ => ⟨S_, .i32⟩
  | .hbm, ⟨41, _⟩ => ⟨S1000, .i32⟩
  | .hbm, ⟨42, _⟩ => ⟨S1000, .i32⟩
  | .hbm, ⟨43, _⟩ => ⟨S1000, .i32⟩
  | .hbm, ⟨44, _⟩ => ⟨S_, .i32⟩
  | .hbm, ⟨45, _⟩ => ⟨S1000, .i32⟩
  | .hbm, ⟨46, _⟩ => ⟨S_, .i32⟩
  | .hbm, ⟨47, _⟩ => ⟨S1000, .i32⟩
  | .hbm, ⟨48, _⟩ => ⟨S1000, .i1⟩
  | .hbm, ⟨49, _⟩ => ⟨S_, .i32⟩
  | .hbm, ⟨50, _⟩ => ⟨S1000, .i32⟩
  | .hbm, ⟨51, _⟩ => ⟨S1000, .i1⟩
  | .hbm, ⟨52, _⟩ => ⟨S_, .i32⟩
  | .hbm, ⟨53, _⟩ => ⟨S1000, .i32⟩
  | .hbm, ⟨54, _⟩ => ⟨S1000, .i32⟩
  | .hbm, ⟨55, _⟩ => ⟨S1000, .i32⟩
  | .hbm, ⟨56, _⟩ => ⟨S1000x1, .i32⟩
  | .hbm, ⟨57, _⟩ => ⟨S1000, .f32⟩
  | .hbm, ⟨58, _⟩ => ⟨S_, .f32⟩
  | .hbm, ⟨59, _⟩ => ⟨S_, .f32⟩
  | .hbm, ⟨60, _⟩ => ⟨S1000, .f32⟩
  | .hbm, ⟨61, _⟩ => ⟨S1000, .f32⟩
  | .hbm, ⟨62, _⟩ => ⟨S_, .f32⟩
  | .hbm, ⟨63, _⟩ => ⟨S_, .f32⟩
  | .hbm, ⟨64, _⟩ => ⟨S1000, .i32⟩
  | .hbm, ⟨65, _⟩ => ⟨S_, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .f32⟩
  | .hbm, ⟨70, _⟩ => ⟨S_, .f32⟩
  | .hbm, ⟨71, _⟩ => ⟨S_, .f32⟩
  | _, _ => ⟨S128x64x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_v0 : Ref sig .tc := ⟨.hbm, 21, rfl⟩
abbrev main_call0_c : Ref sig .tc := ⟨.hbm, 22, rfl⟩
abbrev main_call0_c_0 : Ref sig .tc := ⟨.hbm, 23, rfl⟩
abbrev main_call0_v1_0 : Ref sig .tc := ⟨.hbm, 24, rfl⟩
abbrev main_v14 : Ref sig .tc := ⟨.hbm, 25, rfl⟩
abbrev main_c : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_c : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_c_0 : Ref sig .tc := ⟨.hbm, 40, rfl⟩
abbrev main_call1_v12 : Ref sig .tc := ⟨.hbm, 41, rfl⟩
abbrev main_call1_v13 : Ref sig .tc := ⟨.hbm, 42, rfl⟩
abbrev main_v15 : Ref sig .tc := ⟨.hbm, 43, rfl⟩
abbrev main_c_3 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_c_6 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_7 : Ref sig .tc := ⟨.hbm, 58, rfl⟩
abbrev main_call2_v0 : Ref sig .tc := ⟨.hbm, 59, rfl⟩
abbrev main_call2_v1 : Ref sig .tc := ⟨.hbm, 60, rfl⟩
abbrev main_v26 : Ref sig .tc := ⟨.hbm, 61, rfl⟩
abbrev main_cst_8 : Ref sig .tc := ⟨.hbm, 62, rfl⟩
abbrev main_v27 : Ref sig .tc := ⟨.hbm, 63, rfl⟩
abbrev main_v28 : Ref sig .tc := ⟨.hbm, 64, rfl⟩
abbrev main_c_9 : Ref sig .tc := ⟨.hbm, 65, rfl⟩
abbrev main_v29 : Ref sig .tc := ⟨.hbm, 66, rfl⟩
abbrev main_c_10 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩

abbrev nD : Nat := 1
abbrev τ : Topo := Topo.v7x

variable {F : FTy → Type} [FloatOps F]

class Facts₀ : Prop where
  bcast_S_S128x64x16384 : S_.BroadcastsInDim S128x64x16384 (![] : Fin 0 → Fin S128x64x16384.rank)
  reducesTo_S128x64x64_S128_d1_2 : S128x64x64.ReducesTo [1, 2] S128
  h_S_ : 0 < S_.numel
  bcast_S64x64_S128x64x64_1_2 : S64x64.BroadcastsInDim S128x64x64 (![1, 2] : Fin 2 → Fin S128x64x64.rank)
  bcast_S_S128x64x64 : S_.BroadcastsInDim S128x64x64 (![] : Fin 0 → Fin S128x64x64.rank)
  reducesTo_S8192x1000_S1000_d0 : S8192x1000.ReducesTo [0] S1000
  bcast_S_S1000 : S_.BroadcastsInDim S1000 (![] : Fin 0 → Fin S1000.rank)
  reducesTo_S10000x1000_S1000_d0 : S10000x1000.ReducesTo [0] S1000
  bcast_S1000_S1000x1_0 : S1000.BroadcastsInDim S1000x1 (![0] : Fin 1 → Fin S1000x1.rank)
  reducesTo_S1000_S_d0 : S1000.ReducesTo [0] S_
  natLt_1_32 : 1 < 32
  dot_S128x64x16384_S128x64x16384_S128x64x64_2_2_1_1_0_0_wf : DotDims.WF S128x64x16384 S128x64x16384 S128x64x64 [2] [2] [1] [1] [0] [0]
  gather_S128_S1000x1_S1000_n_0_n_n_0_1_1_wf : GatherDims.WF S128 S1000x1 S1000 [] [0] [] [0] [] 1 ![1]

variable [Facts₀]

def dot_S128x64x16384_S128x64x16384_S128x64x64_2_2_1_1_0_0 : DotDims S128x64x16384 S128x64x16384 S128x64x64 where
  lhsContracting := [2]
  rhsContracting := [2]
  lhsNonContracting := [1]
  rhsNonContracting := [1]
  lhsBatch := [0]
  rhsBatch := [0]
  wf := dot_S128x64x16384_S128x64x16384_S128x64x64_2_2_1_1_0_0_wf
def reducer_argmax_i32_i32 : BitVec 32 × BitVec 32 → BitVec 32 × BitVec 32 → BitVec 32 × BitVec 32 :=
  fun a b =>
    let v2 := IntOp.cmpi .sgt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def gather_S128_S1000x1_S1000_n_0_n_n_0_1_1 : GatherDims S128 S1000x1 S1000 where
  offsetDims := []
  collapsedSliceDims := [0]
  operandBatchingDims := []
  startIndicesBatchingDims := []
  startIndexMap := [0]
  indexVectorDim := 1
  sliceSizes := ![1]
  wf := gather_S128_S1000x1_S1000_n_0_n_n_0_1_1_wf

class Facts : Prop extends Facts₀ where

variable [Facts]
-- ==== Proof.KPieces.lean ====
/-
  What one grid step leaves behind, as values of the blocks it was given (any float instance).

  With `x` the step's [8, 64, 2048] weight tile and `acc` the [8, 64, 64] accumulator as the step found it, write
  `step x acc = acc + x · log(max(x, ε))ᵀ` (per projection row, contracted over the tile's 2048 features): the body's
  one accumulator store. A first-tile step stores the zero block first, so it leaves `step x 0`; a middle step leaves
  `step x acc`; a last-tile step leaves `step x acc` too and writes `fin (step x acc)` to the output block, `fin` being
  the two pair sums and their difference, negated and repeated along the 128 lanes.
-/
import proofs.«164797_j18769007083970_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KV

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A first-tile step: the accumulator ends at the step applied to the zero block. -/
theorem sout_A (c : Dev nD) (i : grid0.Coords) (a2 : Memref sig .tc .vmem S8x64x2048 .f32) (h2 : a2.IsWhole)
    (a3 : Memref sig .tc .vmem S8x128 .f32) (h3 : a3.IsWhole) (a4 : Memref sig .tc .vmem S8x64x64 .f32) (h4 : a4.IsWhole)
    (hc0 : cond0_0 i) (hc1 : ¬cond0_1 i) (x0 : Vec F S8x64x2048 .f32) :
    sout0_A_0 c i a2 h2 a3 h3 a4 h4 hc0 hc1 x0 = k0_pay2 x0 (k0_pay1 (F := F)) := by
  unfold sout0_A_0
  rw [View.read_writes_eq_canon _ _ _ (scover0_A_0 c i a2 h2 a3 h3 a4 h4 hc0 hc1 x0)]
  unfold kernelRun0_A
  dsimp only
  sl_unfold_words
  rw [View.canon_cons_unit_zero (S := S8x64x64) hz3, View.readCov_unit_zero (S := S8x64x64) _ hz3]
  simp only [View.readAt_eq_ld, h2.read_unread, View.ld_unit_zero (S := S8x64x2048) hz3]

/-- A middle step: the accumulator ends at the step applied to what it held. -/
theorem sout_B (c : Dev nD) (i : grid0.Coords) (a2 : Memref sig .tc .vmem S8x64x2048 .f32) (h2 : a2.IsWhole)
    (a3 : Memref sig .tc .vmem S8x128 .f32) (h3 : a3.IsWhole) (a4 : Memref sig .tc .vmem S8x64x64 .f32) (h4 : a4.IsWhole)
    (hc0 : ¬cond0_0 i) (hc1 : ¬cond0_1 i) (x0 : Vec F S8x64x2048 .f32) (xs0 : Vec F S8x64x64 .f32) :
    sout0_B_0 c i a2 h2 a3 h3 a4 h4 hc0 hc1 x0 xs0 = k0_pay2 x0 xs0 := by
  unfold sout0_B_0
  rw [View.read_writes_eq_canon _ _ _ (scover0_B_0 c i a2 h2 a3 h3 a4 h4 hc0 hc1 x0 xs0)]
  unfold kernelRun0_B
  dsimp only
  rw [View.canon_unit_zero hz3]
  simp only [View.readAt_eq_ld, h2.read_unread, h4.read_unread, View.ld_unit_zero (S := S8x64x2048) hz3,
    View.ld_unit_zero (S := S8x64x64) hz3]

/-- A last-tile step leaves the same in the accumulator … -/
theorem sout_C (c : Dev nD) (i : grid0.Coords) (a2 : Memref sig .tc .vmem S8x64x2048 .f32) (h2 : a2.IsWhole)
    (a3 : Memref sig .tc .vmem S8x128 .f32) (h3 : a3.IsWhole) (a4 : Memref sig .tc .vmem S8x64x64 .f32) (h4 : a4.IsWhole)
    (hc0 : ¬cond0_0 i) (hc1 : cond0_1 i) (x0 : Vec F S8x64x2048 .f32) (xs0 : Vec F S8x64x64 .f32) :
    sout0_C_0 c i a2 h2 a3 h3 a4 h4 hc0 hc1 x0 xs0 = k0_pay2 x0 xs0 := by
  unfold sout0_C_0
  rw [View.read_writes_eq_canon _ _ _ (scover0_C_0 c i a2 h2 a3 h3 a4 h4 hc0 hc1 x0 xs0)]
  unfold kernelRun0_C
  dsimp only
  sl_unfold_words
  rw [View.canon_unit_zero hz3]
  simp only [View.readAt_eq_ld, h2.read_unread, h4.read_unread, View.ld_unit_zero (S := S8x64x2048) hz3,
    View.ld_unit_zero (S := S8x64x64) hz3]

/-- … and writes the finished accumulator's pair sums to the output block. -/
theorem out_C (c : Dev nD) (i : grid0.Coords) (a2 : Memref sig .tc .vmem S8x64x2048 .f32) (h2 : a2.IsWhole)
    (a3 : Memref sig .tc .vmem S8x128 .f32) (h3 : a3.IsWhole) (a4 : Memref sig .tc .vmem S8x64x64 .f32) (h4 : a4.IsWhole)
    (hc0 : ¬cond0_0 i) (hc1 : cond0_1 i) (x0 : Vec F S8x64x2048 .f32) (xs0 : Vec F S8x64x64 .f32) :
    out0_C_1 c i a2 h2 a3 h3 a4 h4 hc0 hc1 x0 xs0 = k0_pay3 (k0_pay2 x0 xs0) := by
  unfold out0_C_1
  rw [View.read_writes_eq_canon _ _ _ (cover0_C_1 c i a2 h2 a3 h3 a4 h4 hc0 hc1 x0 xs0)]
  unfold kernelRun0_C
  dsimp only
  sl_unfold_words
  rw [View.canon_unit_zero hz2, View.readCov_unit_zero (S := S8x64x64) _ hz3]
  simp only [View.readAt_eq_ld, h2.read_unread, h4.read_unread, View.ld_unit_zero (S := S8x64x2048) hz3,
    View.ld_unit_zero (S := S8x64x64) hz3]

end Cert.KernelIdeal.KV

end
-- ==== Proof.Spec.lean ====
/-
  The mathematics of the claim, stated once over the extended reals and free of either program.

  For a weight tensor `W` of 128 projections × 64 groups × 16384 features, write
  `L[p,h,k] = log (max (W[p,h,k], ε))` and `C[p,g,h] = ∑ₖ W[p,g,k] · L[p,h,k]` (the cross term of groups `g` and `h`
  of projection `p`). The per-projection entropy term is `-(∑_{g,h} C[p,g,h] - ∑_g C[p,g,g])`: all ordered pairs of
  groups minus the diagonal.
-/
import Idealize.ShloMosaic.PureOps.Ideal
import Idealize.ShloMosaic.Lib.ValueIdx

noncomputable section

namespace Cert.Spec

open Idealize.ShloMosaic Idealize.ShloMosaic.ValueIdx

/-- The weights' shape: 128 projections, 64 groups each, 16384 features. -/
abbrev SW : Shape := ⟨3, ![128, 64, 16384]⟩
/-- One value per projection. -/
abbrev SP : Shape := ⟨1, ![128]⟩

/-- The clamp's lower bound: the binary value of the f32 word both programs carry (about 1e-5). -/
def eps : EReal := Ideal.ofBits .f32 0x3727C5AC#32

/-- `log (max (W[p,h,k], ε))`. -/
def clog (W : SW.Idx → EReal) (p : Fin 128) (h : Fin 64) (k : Fin 16384) : EReal :=
  Ideal.log (max (W (ix3 p h k)) eps)

/-- The cross term of groups `g`, `h` in projection `p`: `∑ₖ W[p,g,k] · log (max (W[p,h,k], ε))`. -/
def cross (W : SW.Idx → EReal) (p : Fin 128) (g h : Fin 64) : EReal :=
  ∑ k : Fin 16384, W (ix3 p g k) * clog W p h k

/-- The per-projection term: minus (all ordered pairs of groups, less the diagonal). -/
def perProj (W : SW.Idx → EReal) : SP.Idx → EReal := fun j =>
  -((∑ g : Fin 64, ∑ h : Fin 64, cross W (j 0) g h) - ∑ g : Fin 64, cross W (j 0) g g)

/-! ## The same number as the kernel accumulates it

The kernel walks the 16384 features in 8 tiles of 2048 and keeps, per projection, a 64 × 64 accumulator that starts
at 0 and gains one tile's partial cross terms per step; after the last tile it sums the accumulator over all pairs,
sums it again against the 0/1 identity pattern, and writes `0 - (all - diagonal)`. -/

/-- Feature `k` of tile `d`. -/
def feat (d : Fin 8) (k : Fin 2048) : Fin 16384 := ⟨2048 * d.val + k.val, by omega⟩

/-- Tile `d`'s share of the cross term: `∑_{k < 2048} W[p,g,2048 d + k] · log (max (W[p,h,2048 d + k], ε))`. -/
def tile (W : SW.Idx → EReal) (p : Fin 128) (g h : Fin 64) (d : Fin 8) : EReal :=
  ∑ k : Fin 2048, W (ix3 p g (feat d k)) * clog W p h (feat d k)

/-- The accumulator entry `(g, h)` of projection `p` after the first `n` tiles: `((0 + tile 0) + tile 1) + …`. -/
def accum (W : SW.Idx → EReal) (p : Fin 128) (g h : Fin 64) : ℕ → EReal
  | 0 => 0
  | n + 1 => accum W p g h n + (if hn : n < 8 then tile W p g h ⟨n, hn⟩ else 0)

/-- The 0/1 identity pattern on group pairs. -/
def eye (g h : Fin 64) : EReal := if g = h then 1 else 0

/-- What the kernel writes for projection `j`, in its own order of operations. -/
def kPerProj (W : SW.Idx → EReal) : SP.Idx → EReal := fun j =>
  0 - ((∑ g : Fin 64, ∑ h : Fin 64, accum W (j 0) g h 8)
        - ∑ g : Fin 64, ∑ h : Fin 64, accum W (j 0) g h 8 * eye g h)

end Cert.Spec

end
-- ==== Proof.KPayload.lean ====
/-
  The step's arithmetic read entry by entry over the extended reals.

  `step x acc` at (b, g, h) is `acc[b,g,h] + ∑_{k<2048} x[b,g,k] · log (max (x[b,h,k], ε))`: the matrix unit's product
  into a zero accumulator is the plain sum over the contracted feature axis, and the changes of float format on the way
  in are the identity. `fin M` at (b, lane) is `0 - (∑_g ∑_h M[b,g,h] - ∑_g ∑_h M[b,g,h] · eye g h)`, whatever the lane:
  each lane-wise reduction from the zero word is the plain sum over the reduced axis, and the 0/1 pattern the kernel
  builds from two coordinate counters is `eye`.
-/
import proofs.«164797_j18769007083970_1_alg».proof.Proof.Gen.KernelIdeal.Skeleton
import proofs.«164797_j18769007083970_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)

namespace Cert.KernelIdeal.KV

open Cert.KernelIdeal Cert.KernelIdeal.Gen Cert.KernelIdeal.Facts₀ Idealize.ShloMosaic.ValueIdx Cert.Spec

/-- The dimension numbers of the step's product: batch axis 0, rows axis 1, contracted axis 2 on both sides. -/
abbrev DD : DotDims S8x64x2048 S8x64x2048 S8x64x64 := dot_S8x64x2048_S8x64x2048_S8x64x64_2_2_1_1_0_0

/-- The contraction index is its one coordinate, a feature of the tile. -/
def featEquiv : DD.contr.Idx ≃ Fin 2048 := contrEquiv1 DD 2048 rfl rfl

theorem lhs_at (b : Fin 8) (g h : Fin 64) (k : Fin 2048) :
    DD.lhsIdx (ix3 b g h) (featEquiv.symm k) = ix3 b g k := by
  funext a
  match a with
  | ⟨0, _⟩ => exact Fin.ext rfl
  | ⟨1, _⟩ => exact Fin.ext rfl
  | ⟨2, _⟩ => exact Fin.ext ((DD.lhsIdx_val_of_single (cl := 2) rfl _ _).trans (contrEquiv1_symm_val DD 2048 rfl rfl k))

theorem rhs_at (b : Fin 8) (g h : Fin 64) (k : Fin 2048) :
    DD.rhsIdx (ix3 b g h) (featEquiv.symm k) = ix3 b h k := by
  funext a
  match a with
  | ⟨0, _⟩ => exact Fin.ext rfl
  | ⟨1, _⟩ => exact Fin.ext rfl
  | ⟨2, _⟩ => exact Fin.ext ((DD.rhsIdx_val_of_single (cr := 2) rfl _ _).trans (contrEquiv1_symm_val DD 2048 rfl rfl k))

/-- The zero block is zero. -/
theorem pay1_apply (j : S8x64x64.Idx) : k0_pay1 (F := Ideal) j = 0 := by
  unfold k0_pay1
  rw [shapeCast_self]
  exact Ideal.ofBits_zero_f32

/-- One accumulation step at an entry. -/
theorem pay2_apply (x : Vec Ideal S8x64x2048 .f32) (acc : Vec Ideal S8x64x64 .f32) (b : Fin 8) (g h : Fin 64) :
    k0_pay2 x acc (ix3 b g h)
      = acc (ix3 b g h) + ∑ k : Fin 2048, x (ix3 b g k) * Ideal.log (max (x (ix3 b h k)) eps) := by
  unfold k0_pay2
  rw [shapeCast_self]
  refine congrArg (acc (ix3 b g h) + ·) ?_
  refine (Ideal.matmul_constant_zero_apply DD none _ _ (ix3 b g h)).trans ?_
  refine (Equiv.sum_comp featEquiv.symm _).symm.trans ?_
  refine Finset.sum_congr rfl fun k _ => ?_
  rw [lhs_at, rhs_at]
  rfl

/-- The lane sum along the last axis of an [8, 64, 64] block, from the zero word: the plain sum over that axis. -/
theorem sum_last (v : FVec Ideal S8x64x64 .f32) (hr : S8x64x64.Reduces [2] S8x64) (b : Fin 8) (g : Fin 64) :
    multiReduction .add [2] S8x64 v 0x00000000#32 hr (.inl rfl) rfl (ix2 b g)
      = ∑ h : Fin 64, v (ix3 b g h) :=
  (Ideal.multiReduction_add_single v 0x00000000#32 hr (.inl rfl) rfl (ix2 b g)).trans
    (Finset.sum_congr rfl fun h _ => congrArg v (funext fun a => by
      match a with
      | ⟨0, _⟩ => exact Fin.ext rfl
      | ⟨1, _⟩ => exact Fin.ext rfl
      | ⟨2, _⟩ => exact Fin.ext rfl))

/-- The sum along the last axis of an [8, 64] block, from the zero word. -/
theorem sum_rows (v : FVec Ideal S8x64 .f32) (hr : S8x64.Reduces [1] S8) (b : Fin 8) :
    multiReduction .add [1] S8 v 0x00000000#32 hr (.inl rfl) rfl (ix1 b)
      = ∑ g : Fin 64, v (ix2 b g) :=
  (Ideal.multiReduction_add_single v 0x00000000#32 hr (.inl rfl) rfl (ix1 b)).trans
    (Finset.sum_congr rfl fun g _ => congrArg v (funext fun a => by
      match a with
      | ⟨0, _⟩ => exact Fin.ext rfl
      | ⟨1, _⟩ => exact Fin.ext rfl))

/-- Two coordinate counters below 64 are equal words exactly when the coordinates are equal: the 0/1 pattern is `eye`. -/
theorem eye_word (g h : Fin 64) :
    (FloatOps.sitofp (F := Ideal) .f32 ((IntOp.cmpi .eq (BitVec.ofNat 32 g.val) (BitVec.ofNat 32 h.val)).setWidth 32) : EReal)
      = eye g h := by
  unfold eye
  by_cases e : g = h
  · subst e
    rw [if_pos rfl]
    show (((((IntOp.cmpi .eq (BitVec.ofNat 32 g.val) (BitVec.ofNat 32 g.val)).setWidth 32).toInt : ℤ) : ℝ) : EReal) = 1
    have : IntOp.cmpi .eq (BitVec.ofNat 32 g.val) (BitVec.ofNat 32 g.val) = 1#1 := by
      unfold IntOp.cmpi; simp
    rw [this]
    norm_num
  · rw [if_neg e]
    have hne : BitVec.ofNat 32 g.val ≠ BitVec.ofNat 32 h.val := fun q => e (Fin.ext (by
      have := congrArg BitVec.toNat q
      simp only [BitVec.toNat_ofNat] at this
      have hg := g.isLt; have hh := h.isLt
      omega))
    show (((((IntOp.cmpi .eq (BitVec.ofNat 32 g.val) (BitVec.ofNat 32 h.val)).setWidth 32).toInt : ℤ) : ℝ) : EReal) = 0
    have : IntOp.cmpi .eq (BitVec.ofNat 32 g.val) (BitVec.ofNat 32 h.val) = 0#1 := by
      unfold IntOp.cmpi
      show BitVec.ofBool (BitVec.ofNat 32 g.val == BitVec.ofNat 32 h.val) = 0#1
      rw [show (BitVec.ofNat 32 g.val == BitVec.ofNat 32 h.val) = false from beq_eq_false_iff_ne.mpr hne]
      rfl
    rw [this]
    norm_num

/-- The finishing arithmetic at an entry of the output block: the same number on every lane. -/
theorem pay3_apply (M : Vec Ideal S8x64x64 .f32) (b : Fin 8) (l : Fin 128) :
    k0_pay3 M (ix2 b l)
      = 0 - ((∑ g : Fin 64, ∑ h : Fin 64, M (ix3 b g h)) - ∑ g : Fin 64, ∑ h : Fin 64, M (ix3 b g h) * eye g h) := by
  unfold k0_pay3
  dsimp only
  refine (broadcastTo_apply _ Facts₀.broadcasts_S8x1_S8x128 (ix2 b l) (ix2 b (0 : Fin 1)) (fun ax => by
    match ax with
    | ⟨0, _⟩ => rfl
    | ⟨1, _⟩ => rfl)).trans ?_
  rw [shapeCast_self]
  refine (shapeCast_apply _ Facts₀.shapeCasts_S8_S8x1 (ix2 b (0 : Fin 1)) (ix1 b) (by
    rw [Shape.rowMajor_val_two, Shape.rowMajor_val_one]; show b.val = b.val * 1 + 0; omega)).trans ?_
  show Ideal.ofBits .f32 0x00000000#32 - (_ - _) = _
  rw [Ideal.ofBits_zero_f32, sum_rows, sum_rows]
  refine congrArg (fun z => (0 : EReal) - z) ?_
  refine congr (congrArg HSub.hSub (Finset.sum_congr rfl fun g _ => sum_last _ _ b g))
    (Finset.sum_congr rfl fun g _ => (sum_last _ _ b g).trans (Finset.sum_congr rfl fun h _ => ?_))
  show M (ix3 b g h) * _ = M (ix3 b g h) * eye g h
  refine congrArg (M (ix3 b g h) * ·) ?_
  refine (broadcastTo_apply _ Facts₀.broadcasts_S1x64x64_S8x64x64 (ix3 b g h) (ix3 (0 : Fin 1) g h) (fun ax => by
    match ax with
    | ⟨0, _⟩ => rfl
    | ⟨1, _⟩ => rfl
    | ⟨2, _⟩ => rfl)).trans ?_
  rw [shapeCast_self]
  refine (shapeCast_ab_1ab_apply _ Facts₀.shapeCasts_S64x64_S1x64x64 (0 : Fin 1) g h).trans ?_
  show FloatOps.sitofp (F := Ideal) .f32 ((IntOp.cmpi .eq (iota .tc S64x64 32 [0] Facts₀.iota_S64x64_d0_w32 (ix2 g h))
    (iota .tc S64x64 32 [1] Facts₀.iota_S64x64_d1_w32 (ix2 g h))).setWidth 32) = _
  rw [iota_single_apply, iota_single_apply]
  exact eye_word g h

end Cert.KernelIdeal.KV

end
-- ==== Proof.SpecLaws.lean ====
/-
  Two laws of the specification: the eight-tile accumulator holds the whole cross term, and the per-projection value
  spelt with the accumulator, the 0/1 identity pattern and `0 - x` is the per-projection term itself.

  Only the laws of a commutative additive monoid with `x * 1 = x` and `x * 0 = 0` are used; nothing needs the
  entries to be finite.
-/
import proofs.«164797_j18769007083970_1_alg».proof.Proof.Spec
import Mathlib.Algebra.BigOperators.Fin
import Mathlib.Logic.Equiv.Fin.Basic

noncomputable section

namespace Cert.Spec

open Idealize.ShloMosaic Idealize.ShloMosaic.ValueIdx

/-- The accumulator after `n` steps is the sum of the first `n` summands (those past the eighth are `0`). -/
theorem accum_eq_range (W : SW.Idx → EReal) (p : Fin 128) (g h : Fin 64) (n : ℕ) :
    accum W p g h n
      = ∑ i ∈ Finset.range n, (if hn : i < 8 then tile W p g h ⟨i, hn⟩ else 0) := by
  induction n with
  | zero => rw [accum, Finset.sum_range_zero]
  | succ n ih => rw [accum, ih, Finset.sum_range_succ]

/-- After the eight tiles the accumulator is the sum of the eight tiles' shares. -/
theorem accum_eight_tiles (W : SW.Idx → EReal) (p : Fin 128) (g h : Fin 64) :
    accum W p g h 8 = ∑ d : Fin 8, tile W p g h d := by
  rw [accum_eq_range,
    ← Fin.sum_univ_eq_sum_range (fun i => if hn : i < 8 then tile W p g h ⟨i, hn⟩ else 0) 8]
  refine Finset.sum_congr rfl fun d _ => ?_
  rw [dif_pos d.isLt]

/-- Feature `2048 d + k` is the image of the pair `(d, k)` under the standard pairing of `Fin 8 × Fin 2048` with
`Fin 16384`. -/
theorem feat_eq (x : Fin 8 × Fin 2048) :
    feat x.1 x.2 = (finProdFinEquiv x : Fin (8 * 2048)) := by
  refine Fin.ext ?_
  show 2048 * x.1.val + x.2.val = x.2.val + 2048 * x.1.val
  exact Nat.add_comm _ _

/-- The eight tiles of 2048 features partition the 16384 features: a sum tile by tile is the sum over all. -/
theorem sum_feat {M : Type*} [AddCommMonoid M] (F : Fin 16384 → M) :
    ∑ d : Fin 8, ∑ k : Fin 2048, F (feat d k) = ∑ k : Fin 16384, F k := by
  calc ∑ d : Fin 8, ∑ k : Fin 2048, F (feat d k)
      = ∑ x : Fin 8 × Fin 2048, F (feat x.1 x.2) :=
        (Fintype.sum_prod_type (fun x : Fin 8 × Fin 2048 => F (feat x.1 x.2))).symm
    _ = ∑ x : Fin 8 × Fin 2048, F (finProdFinEquiv x : Fin (8 * 2048)) :=
        Finset.sum_congr rfl fun x _ => congrArg F (feat_eq x)
    _ = ∑ k : Fin 16384, F k :=
        Equiv.sum_comp (finProdFinEquiv : Fin 8 × Fin 2048 ≃ Fin (8 * 2048)) F

/-- The accumulator after the eight tiles is the cross term over all 16384 features. -/
theorem accum_eight (W : SW.Idx → EReal) (p : Fin 128) (g h : Fin 64) :
    accum W p g h 8 = cross W p g h := by
  rw [accum_eight_tiles]
  exact sum_feat (fun k => W (ix3 p g k) * clog W p h k)

/-- Summing a row against the 0/1 identity pattern picks the diagonal entry. -/
theorem sum_mul_eye (c : Fin 64 → EReal) (g : Fin 64) : ∑ h : Fin 64, c h * eye g h = c g := by
  rw [Finset.sum_eq_single g]
  · rw [eye, if_pos rfl, mul_one]
  · intro h _ hne
    rw [eye, if_neg (fun e => hne e.symm), mul_zero]
  · intro hg
    exact absurd (Finset.mem_univ g) hg

/-- The value in the kernel's order of operations is the per-projection term. -/
theorem kPerProj_eq (W : SW.Idx → EReal) : kPerProj W = perProj W := by
  funext j
  obtain ⟨p, rfl⟩ : ∃ p : Fin 128, j = ix1 p := ⟨j 0, eq_ix1 j⟩
  show 0 - ((∑ g : Fin 64, ∑ h : Fin 64, accum W p g h 8)
              - ∑ g : Fin 64, ∑ h : Fin 64, accum W p g h 8 * eye g h)
      = -((∑ g : Fin 64, ∑ h : Fin 64, cross W p g h) - ∑ g : Fin 64, cross W p g g)
  have hd : ∀ g : Fin 64, ∑ h : Fin 64, accum W p g h 8 * eye g h = cross W p g g := fun g => by
    rw [sum_mul_eye (fun h => accum W p g h 8) g, accum_eight]
  have ha : ∀ g : Fin 64, ∑ h : Fin 64, accum W p g h 8 = ∑ h : Fin 64, cross W p g h := fun g =>
    Finset.sum_congr rfl fun h _ => accum_eight W p g h
  rw [Finset.sum_congr rfl fun g _ => hd g, Finset.sum_congr rfl fun g _ => ha g, zero_sub]

end Cert.Spec

end
-- ==== Proof.KInv.lean ====
/-
  The accumulator along the grid.

  The grid's 128 steps run projection block `P = n / 8` (8 projections) over feature tile `d = n % 8` (2048 features).
  The weight tile a step is given is `W[8P + b, g, 2048 d + k]`. By induction on the step: after step `n` the accumulator
  entry (b, g, h) is `accum W (8P + b) g h (d + 1)` — the first `d + 1` tiles' cross terms of projection `8P + b`, added
  in order from zero — because a first-tile step starts from the zero block and every other step adds its tile to what
  the step before left. At a last-tile step (`d = 7`) the output block holds, on every lane, `kPerProj W (8P + b)`.
-/
import proofs.«164797_j18769007083970_1_alg».proof.Proof.KPieces
import proofs.«164797_j18769007083970_1_alg».proof.Proof.KPayload
import proofs.«164797_j18769007083970_1_alg».proof.Proof.SpecLaws

noncomputable section

open Idealize.ShloMosaic Idealize.ShloMosaic.TcCoe Idealize.SL.Sem
open Idealize.ShloMosaic.Pipeline (Dat)

namespace Cert.KernelIdeal.KV

open Cert.KernelIdeal Cert.KernelIdeal.Gen Idealize.ShloMosaic.ValueIdx Cert.Spec

variable (m : (ℓ : Loc nD τ sig) → Buf (Elt Ideal) ℓ)

/-- The weights as the program was launched with them. -/
abbrev Wt (c : Dev nD) : SW.Idx → EReal := m ((c : Thread nD τ).loc main_arg0)

/-- Projection `8 · (n / 8) + b`: row `b` of step `n`'s projection block. -/
def prow (n : ℕ) (hn : n < 128) (b : Fin 8) : Fin 128 := ⟨8 * (n / 8) + b.val, by omega⟩

/-- Step `n`'s feature tile. -/
def ptile (n : ℕ) : Fin 8 := ⟨n % 8, Nat.mod_lt _ (by decide)⟩

theorem lt128 (t : Fin cfg0.N) : t.val < 128 := lt_of_lt_of_eq t.isLt (show cfg0.N = 128 from N_0)

/-- The block numbers of both windows at step `t`, decided over the grid. -/
theorem idx_facts : ∀ t : Fin cfg0.N, win0_0.index t (0 : Fin 3) = t.val / 8 ∧ win0_0.index t (1 : Fin 3) = 0
    ∧ win0_0.index t (2 : Fin 3) = t.val % 8 ∧ win0_1.index t (0 : Fin 2) = t.val / 8 ∧ win0_1.index t (1 : Fin 2) = 0 :=
  (by decide +kernel : ∀ t : Fin grid0.N, _)

/-- The weight tile step `t` is given. -/
abbrev wtile (c : Dev nD) (t : Fin cfg0.N) : S8x64x2048.Idx → EReal := iblk m c 0 t

/-- The weight tile of step `t`, entry by entry. -/
theorem iblk_apply (c : Dev nD) (t : Fin cfg0.N) (b : Fin 8) (g : Fin 64) (k : Fin 2048) :
    wtile m c t (ix3 b g k)
      = Wt m c (ix3 (prow t.val (lt128 t) b) g (feat (ptile t.val) k)) := by
  obtain ⟨e0, e1, e2, -, -⟩ := idx_facts t
  unfold wtile iblk
  rw [View.read_apply]
  show V m c main_arg0 _ = m ((c : Thread nD τ).loc main_arg0) _
  refine congrArg (m ((c : Thread nD τ).loc main_arg0)) (funext fun a => Fin.ext ?_)
  match a with
  | ⟨0, _⟩ => show win0_0.index t (0 : Fin 3) * 8 + 1 * b.val = 8 * (t.val / 8) + b.val; omega
  | ⟨1, _⟩ => show win0_0.index t (1 : Fin 3) * 64 + 1 * g.val = g.val; omega
  | ⟨2, _⟩ => show win0_0.index t (2 : Fin 3) * 2048 + 1 * k.val = 2048 * (t.val % 8) + k.val; omega

/-- One step's product term is that tile's share of the cross term. -/
theorem tile_eq (c : Dev nD) (t : Fin cfg0.N) (b : Fin 8) (g h : Fin 64) :
    (∑ k : Fin 2048, wtile m c t (ix3 b g k) * Ideal.log (max (wtile m c t (ix3 b h k)) eps))
      = tile (Wt m c) (prow t.val (lt128 t) b) g h (ptile t.val) := by
  unfold tile clog
  exact Finset.sum_congr rfl fun k _ => by rw [iblk_apply m c t b g k, iblk_apply m c t b h k]

/-- What the accumulator holds after a first-tile step, a middle step, a last-tile step; and the output block after
    a last-tile step. -/
theorem outs_A (c : Dev nD) (t : Fin cfg0.N) (h0 : t.val % 8 = 0) (h1 : ¬t.val % 8 = 7) :
    (outsAt0 m c t.val t.isLt).2 = k0_pay2 (iblk m c 0 t) (k0_pay1 (F := Ideal)) :=
  (congrArg Prod.snd (outsAt0_A m c t h0 h1)).trans
    (sout_A c (grid0.coords t) (ms0_0 t) (hs0_0 t) (ms0_1 t) (hs0_1 t) scM0_0 (Memref.isWhole_whole _) ((hcond0_0 t).mpr h0) (fun h => h1 ((hcond0_1 t).mp h)) (iblk m c 0 t))

theorem outs_B (c : Dev nD) (t : Fin cfg0.N) (h0 : ¬t.val % 8 = 0) (h1 : ¬t.val % 8 = 7) :
    (outsAt0 m c t.val t.isLt).2
      = k0_pay2 (iblk m c 0 t) (outsAt0 m c (t.val - 1) (Nat.lt_of_le_of_lt (Nat.sub_le _ _) t.isLt)).2 :=
  (congrArg Prod.snd (outsAt0_B m c t h0 h1)).trans
    (sout_B c (grid0.coords t) (ms0_0 t) (hs0_0 t) (ms0_1 t) (hs0_1 t) scM0_0 (Memref.isWhole_whole _) (fun h => h0 ((hcond0_0 t).mp h)) (fun h => h1 ((hcond0_1 t).mp h)) (iblk m c 0 t) _)

theorem outs_C (c : Dev nD) (t : Fin cfg0.N) (h0 : ¬t.val % 8 = 0) (h1 : t.val % 8 = 7) :
    (outsAt0 m c t.val t.isLt).2
      = k0_pay2 (iblk m c 0 t) (outsAt0 m c (t.val - 1) (Nat.lt_of_le_of_lt (Nat.sub_le _ _) t.isLt)).2 :=
  (congrArg Prod.snd (outsAt0_C m c t h0 h1)).trans
    (sout_C c (grid0.coords t) (ms0_0 t) (hs0_0 t) (ms0_1 t) (hs0_1 t) scM0_0 (Memref.isWhole_whole _) (fun h => h0 ((hcond0_0 t).mp h)) ((hcond0_1 t).mpr h1) (iblk m c 0 t) _)

theorem outs_C1 (c : Dev nD) (t : Fin cfg0.N) (h0 : ¬t.val % 8 = 0) (h1 : t.val % 8 = 7) :
    (outsAt0 m c t.val t.isLt).1 = k0_pay3 (outsAt0 m c t.val t.isLt).2 :=
  (congrArg Prod.fst (outsAt0_C m c t h0 h1)).trans
    ((out_C c (grid0.coords t) (ms0_0 t) (hs0_0 t) (ms0_1 t) (hs0_1 t) scM0_0 (Memref.isWhole_whole _) (fun h => h0 ((hcond0_0 t).mp h)) ((hcond0_1 t).mpr h1) (iblk m c 0 t) _).trans
      (congrArg k0_pay3 (outs_C m c t h0 h1).symm))

theorem accum_succ (W : SW.Idx → EReal) (p : Fin 128) (g h : Fin 64) (n : ℕ) (hn : n < 8) :
    accum W p g h (n + 1) = accum W p g h n + tile W p g h ⟨n, hn⟩ := by
  show accum W p g h n + (if hn : n < 8 then tile W p g h ⟨n, hn⟩ else 0) = _
  rw [dif_pos hn]

/-- THE INVARIANT: after step `n` the accumulator holds the first `n % 8 + 1` tiles' cross terms of its block's projections. -/
theorem scratch_eq (c : Dev nD) : ∀ (n : ℕ) (hn : n < cfg0.N) (b : Fin 8) (g h : Fin 64),
    (outsAt0 m c n hn).2 (ix3 b g h)
      = accum (Wt m c) (prow n (lt128 ⟨n, hn⟩) b) g h (n % 8 + 1) := by
  intro n
  induction n with
  | zero =>
    intro hn b g h
    refine (congrFun (outs_A m c ⟨0, hn⟩ rfl (by show ¬(0 : ℕ) % 8 = 7; decide)) (ix3 b g h)).trans ?_
    rw [pay2_apply, pay1_apply, tile_eq m c ⟨0, hn⟩ b g h]
    exact (accum_succ (Wt m c) _ g h 0 (by decide)).symm
  | succ n ih =>
    intro hn b g h
    have hN : n + 1 < 128 := lt128 ⟨n + 1, hn⟩
    by_cases h0 : (n + 1) % 8 = 0
    · refine (congrFun (outs_A m c ⟨n + 1, hn⟩ h0 (by show ¬(n + 1) % 8 = 7; omega)) (ix3 b g h)).trans ?_
      rw [pay2_apply, pay1_apply, tile_eq m c ⟨n + 1, hn⟩ b g h]
      have e : (n + 1) % 8 + 1 = 0 + 1 := by omega
      rw [e, accum_succ (Wt m c) _ g h 0 (by decide)]
      show (0 : EReal) + tile _ _ g h (ptile (n + 1)) = accum _ _ g h 0 + tile _ _ g h ⟨0, _⟩
      refine congrArg (fun d => (0 : EReal) + tile (Wt m c) (prow (n + 1) hN b) g h d) (Fin.ext ?_)
      show (n + 1) % 8 = 0
      exact h0
    · have hstep : (outsAt0 m c (n + 1) hn).2
          = k0_pay2 (iblk m c 0 ⟨n + 1, hn⟩) (outsAt0 m c n (Nat.lt_of_succ_lt hn)).2 := by
        by_cases h1 : (n + 1) % 8 = 7
        · exact outs_C m c ⟨n + 1, hn⟩ h0 h1
        · exact outs_B m c ⟨n + 1, hn⟩ h0 h1
      refine (congrFun hstep (ix3 b g h)).trans ?_
      rw [pay2_apply, ih (Nat.lt_of_succ_lt hn) b g h, tile_eq m c ⟨n + 1, hn⟩ b g h]
      have hp : prow n (lt128 ⟨n, Nat.lt_of_succ_lt hn⟩) b = prow (n + 1) hN b := Fin.ext (by
        show 8 * (n / 8) + b.val = 8 * ((n + 1) / 8) + b.val; omega)
      have hk : n % 8 + 1 < 8 := by omega
      have e : (n + 1) % 8 + 1 = (n % 8 + 1) + 1 := by omega
      rw [e, accum_succ (Wt m c) _ g h (n % 8 + 1) hk, hp]
      refine congrArg (fun d => accum (Wt m c) (prow (n + 1) hN b) g h (n % 8 + 1) + tile (Wt m c) (prow (n + 1) hN b) g h d) (Fin.ext ?_)
      show (n + 1) % 8 = n % 8 + 1
      omega

/-- After a last-tile step the output block holds, on every lane, the per-projection term in the kernel's own order. -/
theorem out_eq (c : Dev nD) (t : Fin cfg0.N) (h1 : t.val % 8 = 7) (b : Fin 8) (l : Fin 128) :
    (outsAt0 m c t.val t.isLt).1 (ix2 b l) = kPerProj (Wt m c) (ix1 (prow t.val (lt128 t) b)) := by
  refine (congrFun (outs_C1 m c t (by omega) h1) (ix2 b l)).trans ?_
  rw [pay3_apply]
  unfold kPerProj
  have e : t.val % 8 + 1 = 8 := by omega
  simp only [scratch_eq m c t.val t.isLt b, e]

end Cert.KernelIdeal.KV

end
-- ==== Proof.KFinal.lean ====
/-
  From blocks to the array.

  The output array [128, 128] is written back in 16 blocks of 8 rows, block `P` after the last-tile step `8 P + 7`.
  Row `p` of the array therefore ends holding, on every lane, the per-projection term of projection `p`: the blocks
  tile the array (row `p` lies in block `p / 8`), and each written block is the restriction of that one function.
-/
import proofs.«164797_j18769007083970_1_alg».proof.Proof.KInv

noncomputable section

open Idealize.ShloMosaic Idealize.ShloMosaic.TcCoe Idealize.SL.Sem
open Idealize.ShloMosaic.Pipeline (Dat)

namespace Cert.KernelIdeal.KV

open Cert.KernelIdeal Cert.KernelIdeal.Gen Idealize.ShloMosaic.ValueIdx Cert.Spec

variable (m : (ℓ : Loc nD τ sig) → Buf (Elt Ideal) ℓ)

/-- The output array after the run: row `p` is the per-projection term of `p`, repeated along the lanes. -/
def outArr (c : Dev nD) : S128x128.Idx → EReal := fun i => kPerProj (Wt m c) (ix1 (i 0))

/-- What a last-tile step writes back is its block of that array. -/
theorem flushed_eq (c : Dev nD) (t : Fin cfg0.N) (hf : (cfg0.win 1).flush t = true) :
    (dats m 0 c).flushed 1 t = ((cfg0.win 1).blk t).view.read (Elt Ideal) (outArr m c) := by
  have h7 : t.val % 8 = 7 := (flush0_1 t).mp hf
  obtain ⟨-, -, -, e3, e4⟩ := idx_facts t
  show (cfg0.win 1).cut (grid0.coords t) ((dats m 0 c).after 1 t) = _
  rw [after0_1]
  funext y
  obtain ⟨b, l, rfl⟩ : ∃ (b : Fin 8) (l : Fin 128), y = ix2 b l := ⟨y 0, y 1, eq_ix2 y⟩
  show (outsAt0 m c t.val t.isLt).1 (ix2 b l) = outArr m c (((cfg0.win 1).blk t).view.emb (ix2 b l))
  rw [out_eq m c t h7 b l]
  unfold outArr
  refine congrArg (fun q => kPerProj (Wt m c) (ix1 q)) (Fin.ext ?_)
  show 8 * (t.val / 8) + b.val = win0_1.index t (0 : Fin 2) * 8 + 1 * b.val
  omega

/-- An index of the array is in step `t`'s block iff each coordinate is in the block's range on its axis. -/
theorem mem_blk (t : Fin cfg0.N) (i : S128x128.Idx) :
    i ∈ ((cfg0.win 1).blk t).view.set ↔ ∀ a : Fin 2, win0_1.index t a * S8x128.size a ≤ (i a).val
      ∧ (i a).val < win0_1.index t a * S8x128.size a + S8x128.size a := by
  show i ∈ ((View.whole main_v0).slice (win0_1.rect t)).set ↔ _
  rw [View.set_slice_whole, Rect.mem_set_unit]
  exact Iff.rfl

/-- Every row lies in the block some last-tile step writes back. -/
theorem cover (i : S128x128.Idx) :
    ∃ t : Fin cfg0.N, (cfg0.win 1).flush t = true ∧ i ∈ ((cfg0.win 1).blk t).view.set := by
  have hi0 : (i 0).val < 128 := (i 0).isLt
  have hi1 : (i 1).val < 128 := (i 1).isLt
  have hN : cfg0.N = 128 := N_0
  let t : Fin cfg0.N := ⟨8 * ((i 0).val / 8) + 7, by rw [hN]; omega⟩
  have ht : t.val = 8 * ((i 0).val / 8) + 7 := rfl
  obtain ⟨-, -, -, e3, e4⟩ := idx_facts t
  refine ⟨t, (flush0_1 t).mpr (by omega), ?_⟩
  rw [mem_blk]
  intro a
  match a with
  | ⟨0, _⟩ =>
    show win0_1.index t (0 : Fin 2) * 8 ≤ (i 0).val ∧ (i 0).val < win0_1.index t (0 : Fin 2) * 8 + 8
    omega
  | ⟨1, _⟩ =>
    show win0_1.index t (1 : Fin 2) * 128 ≤ (i 1).val ∧ (i 1).val < win0_1.index t (1 : Fin 2) * 128 + 128
    omega

/-- THE OUTPUT ARRAY after the run. -/
theorem final (c : Dev nD) : (dats m 0 c).arrAt 1 cfg0.N = outArr m c :=
  (dats m 0 c).arrAt_eq_of_cover 1 (outArr m c) (flushed_eq m c) cover

/-- Its first lane, row by row, is the per-projection term. -/
theorem outArr_lane0 (c : Dev nD) :
    (fun j : S128.Idx => outArr m c (ix2 (j 0) (0 : Fin 128))) = kPerProj (Wt m c) := by
  funext j
  obtain ⟨p, rfl⟩ : ∃ p : Fin 128, j = ix1 p := ⟨j 0, eq_ix1 j⟩
  rfl

end Cert.KernelIdeal.KV

end
-- ==== Proof.Tail.lean ====
/-
  What both programs do with the 128 per-projection terms `pp`, as ONE function: each of the 1000 classes picks the
  projection `argmax(group_class_identity[:, c]) div 64` (floor division, negative indices wrapped by 128), classes with
  no prototype (column sum of `prototype_class_identity` zero) contribute 0, and the result is
  `-(∑_c picked[c]) / (4032 · #valid classes)`. Both programs end in exactly these operations.
-/
import proofs.«164797_j18769007083970_1_alg».proof.KernelIdeal
import Idealize.ShloMosaic.PureOps.Ideal

noncomputable section

namespace Cert.Spec

open Idealize.ShloMosaic Cert.KernelIdeal Cert.KernelIdeal.Facts₀

/-- The shared tail, operation by operation as the host programs spell it. -/
def tail [Cert.KernelIdeal.Facts] (pp : FVec Ideal S128 .f32) (a1 : IVec S10000x1000 32) (a2 : IVec S8192x1000 32) :
    FVec Ideal S_ .f32 :=
  let v3 : IVec S1000 32 := fun j => (Host.reduce2 reducer_argmax_i32_i32 a2 (iotaInDim S8192x1000 32 0) (constantI S_ 32 2147483648#32) (constantI S_ 32 0#32) reducesTo_S8192x1000_S1000_d0 h_S_ j).2
  let c : IVec S_ 32 := constantI S_ 32 64#32
  let q0 : IVec S_ 32 := id c
  let q1 : IVec S1000 32 := broadcastInDim S1000 ![] bcast_S_S1000 q0
  let q2 : IVec S1000 32 := Host.divsi v3 q1
  let q3 : IVec S1000 32 := signi v3
  let q4 : IVec S_ 32 := signi q0
  let q5 : IVec S1000 32 := broadcastInDim S1000 ![] bcast_S_S1000 q4
  let q6 : IVec S1000 1 := cmpi .ne q3 q5
  let q7 : IVec S1000 32 := broadcastInDim S1000 ![] bcast_S_S1000 q0
  let q8 : IVec S1000 32 := Host.remsi v3 q7
  let qc : IVec S_ 32 := constantI S_ 32 0#32
  let q9 : IVec S1000 32 := broadcastInDim S1000 ![] bcast_S_S1000 qc
  let q10 : IVec S1000 1 := cmpi .ne q8 q9
  let q11 : IVec S1000 1 := andi q6 q10
  let qc0 : IVec S_ 32 := constantI S_ 32 1#32
  let q12 : IVec S1000 32 := broadcastInDim S1000 ![] bcast_S_S1000 qc0
  let q13 : IVec S1000 32 := subi q2 q12
  let v4 : IVec S1000 32 := select q11 q13 q2
  let c0 : IVec S_ 32 := constantI S_ 32 0#32
  let v5 : IVec S1000 32 := Host.reduce IntOp.addi a1 c0 reducesTo_S10000x1000_S1000_d0 h_S_
  let c1 : IVec S_ 32 := constantI S_ 32 0#32
  let v6 : IVec S1000 32 := broadcastInDim S1000 ![] bcast_S_S1000 c1
  let v7 : IVec S1000 1 := cmpi .ne v5 v6
  let c2 : IVec S_ 32 := constantI S_ 32 0#32
  let v8 : IVec S1000 32 := broadcastInDim S1000 ![] bcast_S_S1000 c2
  let v9 : IVec S1000 1 := cmpi .slt v4 v8
  let c3 : IVec S_ 32 := constantI S_ 32 128#32
  let v10 : IVec S1000 32 := broadcastInDim S1000 ![] bcast_S_S1000 c3
  let v11 : IVec S1000 32 := addi v4 v10
  let v12 : IVec S1000 32 := select v9 v11 v4
  let v13 : IVec S1000x1 32 := broadcastInDim S1000x1 ![0] bcast_S1000_S1000x1_0 v12
  let v14 : FVec Ideal S1000 .f32 := Host.gather gather_S128_S1000x1_S1000_n_0_n_n_0_1_1 pp v13
  let cst : FVec Ideal S_ .f32 := constant S_ .f32 0x00000000#32
  let w0 : FVec Ideal S_ .f32 := id cst
  let w1 : FVec Ideal S1000 .f32 := broadcastInDim S1000 ![] bcast_S_S1000 w0
  let v15 : FVec Ideal S1000 .f32 := select v7 v14 w1
  let cst4 : FVec Ideal S_ .f32 := constant S_ .f32 0x00000000#32
  let v16 : FVec Ideal S_ .f32 := Host.reduceAdd v15 cst4 reducesTo_S1000_S_d0 h_S_
  let v17 : IVec S1000 32 := extui 32 v7 natLt_1_32
  let c5 : IVec S_ 32 := constantI S_ 32 0#32
  let v18 : IVec S_ 32 := Host.reduce IntOp.addi v17 c5 reducesTo_S1000_S_d0 h_S_
  let c6 : IVec S_ 32 := constantI S_ 32 4032#32
  let v19 : IVec S_ 32 := muli v18 c6
  let v20 : FVec Ideal S_ .f32 := sitofp .f32 v19
  let v21 : FVec Ideal S_ .f32 := Host.divf v16 v20
  Host.negf v21

end Cert.Spec

end
-- ==== Proof.KTail.lean ====
/-
  The host operations after the region, read as one function of the region's output array and the two integer
  arguments: column 0 of the 128 × 128 output array is the vector of per-projection terms, and what follows is the
  shared tail applied to it.

  The tail is cut into five pieces (the arg-max column, its floor division by 64, the valid-class mask, the picked
  per-projection terms, and the masked mean); each named buffer after the operations is the corresponding piece of the
  buffers before it.
-/
import proofs.«164797_j18769007083970_1_alg».proof.Proof.Gen.KernelIdeal.Frame
import proofs.«164797_j18769007083970_1_alg».proof.Proof.Tail
import Idealize.ShloMosaic.Lib.Pipeline.Value
import Idealize.ShloMosaic.Lib.StableHlo.Run
import Idealize.ShloMosaic.Lib.ValueIdx
import Idealize.ShloMosaic.Lib.ValueLayout

noncomputable section

namespace Cert.KernelIdeal.KV

open Cert.KernelIdeal Cert.KernelIdeal.Gen Idealize.ShloMosaic Idealize.ShloMosaic.TcCoe Idealize.SL.Sem
  Idealize.ShloMosaic.ValueIdx

/-! ## The tail in five pieces -/

/-- Per class, the row of the largest entry of its column of `a2` (the first such row). -/
def tArg (a2 : IVec S8192x1000 32) : IVec S1000 32 :=
  fun j => (Host.reduce2 reducer_argmax_i32_i32 a2 (iotaInDim S8192x1000 32 0) (constantI S_ 32 2147483648#32) (constantI S_ 32 0#32) reducesTo_S8192x1000_S1000_d0 h_S_ j).2

/-- Floor division by 64: the truncated quotient, less one where the signs differ and the remainder is not zero. -/
def tDiv (v3 : IVec S1000 32) : IVec S1000 32 :=
  let c : IVec S_ 32 := constantI S_ 32 64#32
  let q0 : IVec S_ 32 := id c
  let q1 : IVec S1000 32 := broadcastInDim S1000 ![] bcast_S_S1000 q0
  let q2 : IVec S1000 32 := Host.divsi v3 q1
  let q3 : IVec S1000 32 := signi v3
  let q4 : IVec S_ 32 := signi q0
  let q5 : IVec S1000 32 := broadcastInDim S1000 ![] bcast_S_S1000 q4
  let q6 : IVec S1000 1 := cmpi .ne q3 q5
  let q7 : IVec S1000 32 := broadcastInDim S1000 ![] bcast_S_S1000 q0
  let q8 : IVec S1000 32 := Host.remsi v3 q7
  let qc : IVec S_ 32 := constantI S_ 32 0#32
  let q9 : IVec S1000 32 := broadcastInDim S1000 ![] bcast_S_S1000 qc
  let q10 : IVec S1000 1 := cmpi .ne q8 q9
  let q11 : IVec S1000 1 := andi q6 q10
  let qc0 : IVec S_ 32 := constantI S_ 32 1#32
  let q12 : IVec S1000 32 := broadcastInDim S1000 ![] bcast_S_S1000 qc0
  let q13 : IVec S1000 32 := subi q2 q12
  select q11 q13 q2

/-- The classes whose column of `a1` does not sum to zero. -/
def tValid (a1 : IVec S10000x1000 32) : IVec S1000 1 :=
  let c0 : IVec S_ 32 := constantI S_ 32 0#32
  let v5 : IVec S1000 32 := Host.reduce IntOp.addi a1 c0 reducesTo_S10000x1000_S1000_d0 h_S_
  let c1 : IVec S_ 32 := constantI S_ 32 0#32
  let v6 : IVec S1000 32 := broadcastInDim S1000 ![] bcast_S_S1000 c1
  cmpi .ne v5 v6

/-- Per class, the per-projection term at its projection number (a negative number wrapped by 128). -/
def tPick (pp : FVec Ideal S128 .f32) (v4 : IVec S1000 32) : FVec Ideal S1000 .f32 :=
  let c2 : IVec S_ 32 := constantI S_ 32 0#32
  let v8 : IVec S1000 32 := broadcastInDim S1000 ![] bcast_S_S1000 c2
  let v9 : IVec S1000 1 := cmpi .slt v4 v8
  let c3 : IVec S_ 32 := constantI S_ 32 128#32
  let v10 : IVec S1000 32 := broadcastInDim S1000 ![] bcast_S_S1000 c3
  let v11 : IVec S1000 32 := addi v4 v10
  let v12 : IVec S1000 32 := select v9 v11 v4
  let v13 : IVec S1000x1 32 := broadcastInDim S1000x1 ![0] bcast_S1000_S1000x1_0 v12
  Host.gather gather_S128_S1000x1_S1000_n_0_n_n_0_1_1 pp v13

/-- Minus the sum of the picked terms of the valid classes (the others replaced by `cst`), over 4032 times the number of
valid classes. -/
def tMean (cst : FVec Ideal S_ .f32) (v7 : IVec S1000 1) (v14 : FVec Ideal S1000 .f32) : FVec Ideal S_ .f32 :=
  let w0 : FVec Ideal S_ .f32 := id cst
  let w1 : FVec Ideal S1000 .f32 := broadcastInDim S1000 ![] bcast_S_S1000 w0
  let v15 : FVec Ideal S1000 .f32 := select v7 v14 w1
  let cst4 : FVec Ideal S_ .f32 := constant S_ .f32 0x00000000#32
  let v16 : FVec Ideal S_ .f32 := Host.reduceAdd v15 cst4 reducesTo_S1000_S_d0 h_S_
  let v17 : IVec S1000 32 := extui 32 v7 natLt_1_32
  let c5 : IVec S_ 32 := constantI S_ 32 0#32
  let v18 : IVec S_ 32 := Host.reduce IntOp.addi v17 c5 reducesTo_S1000_S_d0 h_S_
  let c6 : IVec S_ 32 := constantI S_ 32 4032#32
  let v19 : IVec S_ 32 := muli v18 c6
  let v20 : FVec Ideal S_ .f32 := sitofp .f32 v19
  let v21 : FVec Ideal S_ .f32 := Host.divf v16 v20
  Host.negf v21

/-- The same with the invalid classes' terms replaced by zero. -/
def tEnd (v7 : IVec S1000 1) (v14 : FVec Ideal S1000 .f32) : FVec Ideal S_ .f32 :=
  tMean (constant S_ .f32 0x00000000#32) v7 v14

/-- The shared tail is the five pieces composed. -/
theorem tail_split (pp : FVec Ideal S128 .f32) (a1 : IVec S10000x1000 32) (a2 : IVec S8192x1000 32) :
    Cert.Spec.tail pp a1 a2 = tEnd (tValid a1) (tPick pp (tDiv (tArg a2))) := rfl

/-! ## Column 0 of the output array -/

/-- Column 0 of a 128 × 128 array, taken as the 128 × 1 block at the origin and flattened to 128 entries. -/
theorem firstColumn (X : S128x128.Idx → EReal) :
    (fun i => shapeCast S128 (extractStridedSlice S128x1 ![0, 0] X slices_S128x128_S128x1_0_0) shapeCasts_S128x1_S128 i)
      = fun j : S128.Idx => X (ix2 (j 0) (0 : Fin 128)) := by
  funext j
  obtain ⟨p, rfl⟩ : ∃ p : Fin 128, j = ix1 p := ⟨j 0, eq_ix1 j⟩
  show shapeCast S128 (extractStridedSlice S128x1 ![0, 0] X slices_S128x128_S128x1_0_0) shapeCasts_S128x1_S128 (ix1 p)
      = X (ix2 p (0 : Fin 128))
  refine (shapeCast_apply _ shapeCasts_S128x1_S128 (ix1 p) (ix2 p (0 : Fin 1)) ?_).trans ?_
  · rw [Shape.rowMajor_val_two, Shape.rowMajor_val_one]
    show p.val * 1 + 0 = p.val
    omega
  · exact slice2_axis1_apply 0 X slices_S128x128_S128x1_0_0 p (0 : Fin 1) (0 : Fin 128) rfl

/-! ## The operations after the region, buffer by buffer -/

/-- The operations after the region, in order. -/
abbrev tailOps : List (HloOp τ sig (Elt Ideal)) :=
  List.flatten [hostOps1, hostOps1_1, hostOps1_2, hostOps1_3, hostOps1_4, hostOps1_5, hostOps1_6]

/-- Folding a list of operations in two parts. -/
theorem after_append (l1 l2 : List (HloOp τ sig (Elt Ideal))) (V : Valuation τ sig (Elt Ideal)) :
    StableHlo.after (l1 ++ l2) V = StableHlo.after l2 (StableHlo.after l1 V) := by
  induction l1 generalizing V with
  | nil => rfl
  | cons op ops ih => exact ih _

theorem tailOps_eq :
    tailOps = hostOps1 ++ (hostOps1_1 ++ ((hostOps1_2 ++ hostOps1_3) ++ (hostOps1_4 ++ (hostOps1_5 ++ hostOps1_6)))) := by
  simp only [tailOps, List.flatten_cons, List.flatten_nil, List.append_nil, List.append_assoc]

/-! ### The column of the output array -/

theorem a_v2 (V : Valuation τ sig (Elt Ideal)) :
    StableHlo.after hostOps1 V (Proc.devRef .tc main_v2)
      = fun i => shapeCast S128 (extractStridedSlice S128x1 ![0, 0] (V (Proc.devRef .tc main_v0)) slices_S128x128_S128x1_0_0)
          shapeCasts_S128x1_S128 i := by
  simp only [hostOps1]
  after_results_simp
  rfl

theorem a_arg1 (V : Valuation τ sig (Elt Ideal)) :
    StableHlo.after hostOps1 V (Proc.devRef .tc main_arg1) = V (Proc.devRef .tc main_arg1) := by
  simp only [hostOps1]
  after_results_simp

theorem a_arg2 (V : Valuation τ sig (Elt Ideal)) :
    StableHlo.after hostOps1 V (Proc.devRef .tc main_arg2) = V (Proc.devRef .tc main_arg2) := by
  simp only [hostOps1]
  after_results_simp

/-! ### The arg-max column -/

theorem b_v3 (V : Valuation τ sig (Elt Ideal)) :
    StableHlo.after hostOps1_1 V (Proc.devRef .tc main_v3) = tArg (V (Proc.devRef .tc main_arg2)) := by
  simp only [hostOps1_1]
  after_results_simp
  rfl

theorem b_v2 (V : Valuation τ sig (Elt Ideal)) :
    StableHlo.after hostOps1_1 V (Proc.devRef .tc main_v2) = V (Proc.devRef .tc main_v2) := by
  simp only [hostOps1_1]
  after_results_simp

theorem b_arg1 (V : Valuation τ sig (Elt Ideal)) :
    StableHlo.after hostOps1_1 V (Proc.devRef .tc main_arg1) = V (Proc.devRef .tc main_arg1) := by
  simp only [hostOps1_1]
  after_results_simp

/-! ### The floor division -/

theorem c_v4 (V : Valuation τ sig (Elt Ideal)) :
    StableHlo.after (hostOps1_2 ++ hostOps1_3) V (Proc.devRef .tc main_v4) = tDiv (V (Proc.devRef .tc main_v3)) := by
  simp only [hostOps1_2, hostOps1_3, List.cons_append, List.nil_append]
  after_results_simp
  rfl

theorem c_v2 (V : Valuation τ sig (Elt Ideal)) :
    StableHlo.after (hostOps1_2 ++ hostOps1_3) V (Proc.devRef .tc main_v2) = V (Proc.devRef .tc main_v2) := by
  simp only [hostOps1_2, hostOps1_3, List.cons_append, List.nil_append]
  after_results_simp

theorem c_arg1 (V : Valuation τ sig (Elt Ideal)) :
    StableHlo.after (hostOps1_2 ++ hostOps1_3) V (Proc.devRef .tc main_arg1) = V (Proc.devRef .tc main_arg1) := by
  simp only [hostOps1_2, hostOps1_3, List.cons_append, List.nil_append]
  after_results_simp

/-! ### The valid classes and the picked terms -/

theorem d_v7 (V : Valuation τ sig (Elt Ideal)) :
    StableHlo.after hostOps1_4 V (Proc.devRef .tc main_v7) = tValid (V (Proc.devRef .tc main_arg1)) := by
  simp only [hostOps1_4]
  after_results_simp
  rfl

theorem d_v14 (V : Valuation τ sig (Elt Ideal)) :
    StableHlo.after hostOps1_4 V (Proc.devRef .tc main_v14)
      = tPick (V (Proc.devRef .tc main_v2)) (V (Proc.devRef .tc main_v4)) := by
  simp only [hostOps1_4]
  after_results_simp
  rfl

theorem d_cst (V : Valuation τ sig (Elt Ideal)) :
    StableHlo.after hostOps1_4 V (Proc.devRef .tc main_cst) = constant (F := Ideal) S_ .f32 0x00000000#32 := by
  simp only [hostOps1_4]
  after_results_simp

/-! ### The masked mean -/

theorem e_v22 (V : Valuation τ sig (Elt Ideal)) :
    StableHlo.after (hostOps1_5 ++ hostOps1_6) V (Proc.devRef .tc main_v22)
      = tMean (V (Proc.devRef .tc main_cst)) (V (Proc.devRef .tc main_v7)) (V (Proc.devRef .tc main_v14)) := by
  simp only [hostOps1_5, hostOps1_6, List.cons_append, List.nil_append]
  after_results_simp
  rfl

/-! ### The stages composed -/

/-- The last buffer after all the operations, from the contents `W` they start from. -/
theorem tail_value (W : Valuation τ sig (Elt Ideal)) :
    StableHlo.after tailOps W (Proc.devRef .tc main_v22)
      = Cert.Spec.tail
          (fun i => shapeCast S128 (extractStridedSlice S128x1 ![0, 0] (W (Proc.devRef .tc main_v0)) slices_S128x128_S128x1_0_0)
            shapeCasts_S128x1_S128 i)
          (W (Proc.devRef .tc main_arg1)) (W (Proc.devRef .tc main_arg2)) := by
  rw [tailOps_eq, after_append, after_append, after_append, after_append]
  generalize h1 : StableHlo.after hostOps1 W = V1
  generalize h2 : StableHlo.after hostOps1_1 V1 = V2
  generalize h4 : StableHlo.after (hostOps1_2 ++ hostOps1_3) V2 = V4
  generalize h5 : StableHlo.after hostOps1_4 V4 = V5
  have e1v2 := a_v2 W
  have e1a1 := a_arg1 W
  have e1a2 := a_arg2 W
  rw [h1] at e1v2 e1a1 e1a2
  have e2v3 := b_v3 V1
  have e2v2 := b_v2 V1
  have e2a1 := b_arg1 V1
  rw [h2] at e2v3 e2v2 e2a1
  have e4v4 := c_v4 V2
  have e4v2 := c_v2 V2
  have e4a1 := c_arg1 V2
  rw [h4] at e4v4 e4v2 e4a1
  have e5v7 := d_v7 V4
  have e5v14 := d_v14 V4
  have e5c := d_cst V4
  rw [h5] at e5v7 e5v14 e5c
  rw [e_v22 V5, e5c, e5v7, e5v14, e4a1, e4v2, e4v4, e2a1, e2v2, e2v3, e1a1, e1v2, e1a2, tail_split]
  rfl

/-- What the operations after the region leave in the result buffer: the shared tail of column 0 of the region's
output array and the two integer arguments as launched. -/
theorem tail_eq (m : (ℓ : Loc nD τ sig) → Buf (Elt Ideal) ℓ) (c : Dev nD) (out : S128x128.Idx → EReal)
    (hout : (dats m 0 c).arrAt 1 cfg0.N = out) :
    Pipeline.afterTail₀ cfgs (dats m) 0 (V0 m) [hostOps1, hostOps1_1, hostOps1_2, hostOps1_3, hostOps1_4, hostOps1_5, hostOps1_6] c main_v22
      = Cert.Spec.tail (fun j : S128.Idx => out (ix2 (j 0) (0 : Fin 128)))
          (m ((c : Thread nD τ).loc main_arg1)) (m ((c : Thread nD τ).loc main_arg2)) := by
  have h0 : Pipeline.withArrays spec0 c (V0 m c) (fun w => (dats m 0 c).arrAt w cfg0.N) (Proc.devRef .tc main_v0) = out :=
    (Pipeline.withArrays_arr spec0 launch0.win.arr_inj c _ _ 1).trans hout
  have h1 : Pipeline.withArrays spec0 c (V0 m c) (fun w => (dats m 0 c).arrAt w cfg0.N) (Proc.devRef .tc main_arg1)
      = m ((c : Thread nD τ).loc main_arg1) :=
    (Pipeline.withArrays_of_ne _ c (V0 m c) _ main_arg1 (by exact (by decide : ∀ w, Pipeline.arrRef spec0 w ≠ main_arg1))).trans (V_main_arg1 m c)
  have h2 : Pipeline.withArrays spec0 c (V0 m c) (fun w => (dats m 0 c).arrAt w cfg0.N) (Proc.devRef .tc main_arg2)
      = m ((c : Thread nD τ).loc main_arg2) :=
    (Pipeline.withArrays_of_ne _ c (V0 m c) _ main_arg2 (by exact (by decide : ∀ w, Pipeline.arrRef spec0 w ≠ main_arg2))).trans (V_main_arg2 m c)
  unfold Pipeline.afterTail₀
  show StableHlo.after tailOps (Pipeline.withArrays spec0 c (V0 m c) (fun w => (dats m 0 c).arrAt w cfg0.N)) (Proc.devRef .tc main_v22) = _
  generalize Pipeline.withArrays spec0 c (V0 m c) (fun w => (dats m 0 c).arrAt w cfg0.N) = Wv at h0 h1 h2 ⊢
  rw [tail_value Wv, h0, h1, h2, firstColumn out]

end Cert.KernelIdeal.KV

end
-- ==== Proof.RefRunOps.lean ====
/-
  The reference's host program as ONE straight line of operations: the three outlined functions it calls
  (the arg-max over rows, the floor division with its inner select, the masking select) written out at their
  call sites, each at the buffer its call names for that value. Sixty-nine operations: eighteen from the weights to the 128
  per-projection terms, then the class-wise gather, mask, sum and normalisation.
-/
import proofs.«164797_j18769007083970_1_alg».proof.ReferenceIdeal
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F] [Cert.ReferenceIdeal.Facts]

/-- The first eighteen operations: from the weights to the per-projection terms, minus (the sum over all ordered
    pairs of groups of the cross terms, less the sum over the pairs with equal row and column number). -/
abbrev opsA : List (HloOp τ sig (Elt F)) :=
  [ nullary main_cst (constant S_ .f32 0x3727C5AC#32),
    unary main_cst main_v0 (broadcastInDim S128x64x16384 ![] bcast_S_S128x64x16384 : (⟨S_, .f32⟩ : BufTy).Contents (Elt F) → (⟨S128x64x16384, .f32⟩ : BufTy).Contents (Elt F)),
    binary main_arg0 main_v0 main_v1 (maximumf : (⟨S128x64x16384, .f32⟩ : BufTy).Contents (Elt F) → (⟨S128x64x16384, .f32⟩ : BufTy).Contents (Elt F) → (⟨S128x64x16384, .f32⟩ : BufTy).Contents (Elt F)),
    unary main_v1 main_v2 (Host.log : (⟨S128x64x16384, .f32⟩ : BufTy).Contents (Elt F) → (⟨S128x64x16384, .f32⟩ : BufTy).Contents (Elt F)),
    binary main_arg0 main_v2 main_v3 ((fun l r => Host.dotGeneral dot_S128x64x16384_S128x64x16384_S128x64x64_2_2_1_1_0_0 none l r) : (⟨S128x64x16384, .f32⟩ : BufTy).Contents (Elt F) → (⟨S128x64x16384, .f32⟩ : BufTy).Contents (Elt F) → (⟨S128x64x64, .f32⟩ : BufTy).Contents (Elt F)),
    nullary main_cst_0 (constant S_ .f32 0x00000000#32),
    binary main_v3 main_cst_0 main_v4 ((fun x v => Host.reduceAdd x v reducesTo_S128x64x64_S128_d1_2 h_S_) : (⟨S128x64x64, .f32⟩ : BufTy).Contents (Elt F) → (⟨S_, .f32⟩ : BufTy).Contents (Elt F) → (⟨S128, .f32⟩ : BufTy).Contents (Elt F)),
    nullary main_v5 (iotaInDim S64x64 32 0),
    nullary main_v6 (iotaInDim S64x64 32 1),
    binary main_v5 main_v6 main_v7 (cmpi .eq : (⟨S64x64, .i32⟩ : BufTy).Contents (Elt F) → (⟨S64x64, .i32⟩ : BufTy).Contents (Elt F) → (⟨S64x64, .i1⟩ : BufTy).Contents (Elt F)),
    unary main_v7 main_v8 (broadcastInDim S128x64x64 ![1, 2] bcast_S64x64_S128x64x64_1_2 : (⟨S64x64, .i1⟩ : BufTy).Contents (Elt F) → (⟨S128x64x64, .i1⟩ : BufTy).Contents (Elt F)),
    nullary main_cst_1 (constant S_ .f32 0x00000000#32),
    unary main_cst_1 main_v9 (broadcastInDim S128x64x64 ![] bcast_S_S128x64x64 : (⟨S_, .f32⟩ : BufTy).Contents (Elt F) → (⟨S128x64x64, .f32⟩ : BufTy).Contents (Elt F)),
    ternary main_v8 main_v3 main_v9 main_v10 (select : (⟨S128x64x64, .i1⟩ : BufTy).Contents (Elt F) → (⟨S128x64x64, .f32⟩ : BufTy).Contents (Elt F) → (⟨S128x64x64, .f32⟩ : BufTy).Contents (Elt F) → (⟨S128x64x64, .f32⟩ : BufTy).Contents (Elt F)),
    nullary main_cst_2 (constant S_ .f32 0x00000000#32),
    binary main_v10 main_cst_2 main_v11 ((fun x v => Host.reduceAdd x v reducesTo_S128x64x64_S128_d1_2 h_S_) : (⟨S128x64x64, .f32⟩ : BufTy).Contents (Elt F) → (⟨S_, .f32⟩ : BufTy).Contents (Elt F) → (⟨S128, .f32⟩ : BufTy).Contents (Elt F)),
    binary main_v4 main_v11 main_v12 (subf : (⟨S128, .f32⟩ : BufTy).Contents (Elt F) → (⟨S128, .f32⟩ : BufTy).Contents (Elt F) → (⟨S128, .f32⟩ : BufTy).Contents (Elt F)),
    unary main_v12 main_v13 (Host.negf : (⟨S128, .f32⟩ : BufTy).Contents (Elt F) → (⟨S128, .f32⟩ : BufTy).Contents (Elt F)) ]

/-- The remaining fifty-one operations: per class the row of the largest entry (five operations of the
    arg-max), its floor quotient by 64 (seventeen, the last the inner select), the wrap of negative quotients by
    128, the gather of the per-projection terms, the mask of classes without a prototype (three), the sum, the
    count of valid classes times 4032, the quotient and the sign. -/
abbrev opsB : List (HloOp τ sig (Elt F)) :=
  [ nullary main_call0_v0 (iotaInDim S8192x1000 32 0),
    nullary main_call0_c (constantI S_ 32 2147483648#32),
    nullary main_call0_c_0 (constantI S_ 32 0#32),
    quaternary main_arg2 main_call0_v0 main_call0_c main_call0_c_0 main_call0_v1_0 ((fun x y u v j => (Host.reduce2 reducer_argmax_i32_i32 x y u v reducesTo_S8192x1000_S1000_d0 h_S_ j).1) : (⟨S8192x1000, .i32⟩ : BufTy).Contents (Elt F) → (⟨S8192x1000, .i32⟩ : BufTy).Contents (Elt F) → (⟨S_, .i32⟩ : BufTy).Contents (Elt F) → (⟨S_, .i32⟩ : BufTy).Contents (Elt F) → (⟨S1000, .i32⟩ : BufTy).Contents (Elt F)),
    quaternary main_arg2 main_call0_v0 main_call0_c main_call0_c_0 main_v14 ((fun x y u v j => (Host.reduce2 reducer_argmax_i32_i32 x y u v reducesTo_S8192x1000_S1000_d0 h_S_ j).2) : (⟨S8192x1000, .i32⟩ : BufTy).Contents (Elt F) → (⟨S8192x1000, .i32⟩ : BufTy).Contents (Elt F) → (⟨S_, .i32⟩ : BufTy).Contents (Elt F) → (⟨S_, .i32⟩ : BufTy).Contents (Elt F) → (⟨S1000, .i32⟩ : BufTy).Contents (Elt F)),
    nullary main_c (constantI S_ 32 64#32),
    unary main_c main_call1_v0 (id : (⟨S_, .i32⟩ : BufTy).Contents (Elt F) → (⟨S_, .i32⟩ : BufTy).Contents (Elt F)),
    unary main_call1_v0 main_call1_v1 (broadcastInDim S1000 ![] bcast_S_S1000 : (⟨S_, .i32⟩ : BufTy).Contents (Elt F) → (⟨S1000, .i32⟩ : BufTy).Contents (Elt F)),
    binary main_v14 main_call1_v1 main_call1_v2 (Host.divsi : (⟨S1000, .i32⟩ : BufTy).Contents (Elt F) → (⟨S1000, .i32⟩ : BufTy).Contents (Elt F) → (⟨S1000, .i32⟩ : BufTy).Contents (Elt F)),
    unary main_v14 main_call1_v3 (signi : (⟨S1000, .i32⟩ : BufTy).Contents (Elt F) → (⟨S1000, .i32⟩ : BufTy).Contents (Elt F)),
    unary main_call1_v0 main_call1_v4 (signi : (⟨S_, .i32⟩ : BufTy).Contents (Elt F) → (⟨S_, .i32⟩ : BufTy).Contents (Elt F)),
    unary main_call1_v4 main_call1_v5 (broadcastInDim S1000 ![] bcast_S_S1000 : (⟨S_, .i32⟩ : BufTy).Contents (Elt F) → (⟨S1000, .i32⟩ : BufTy).Contents (Elt F)),
    binary main_call1_v3 main_call1_v5 main_call1_v6 (cmpi .ne : (⟨S1000, .i32⟩ : BufTy).Contents (Elt F) → (⟨S1000, .i32⟩ : BufTy).Contents (Elt F) → (⟨S1000, .i1⟩ : BufTy).Contents (Elt F)),
    unary main_call1_v0 main_call1_v7 (broadcastInDim S1000 ![] bcast_S_S1000 : (⟨S_, .i32⟩ : BufTy).Contents (Elt F) → (⟨S1000, .i32⟩ : BufTy).Contents (Elt F)),
    binary main_v14 main_call1_v7 main_call1_v8 (Host.remsi : (⟨S1000, .i32⟩ : BufTy).Contents (Elt F) → (⟨S1000, .i32⟩ : BufTy).Contents (Elt F) → (⟨S1000, .i32⟩ : BufTy).Contents (Elt F)),
    nullary main_call1_c (constantI S_ 32 0#32),
    unary main_call1_c main_call1_v9 (broadcastInDim S1000 ![] bcast_S_S1000 : (⟨S_, .i32⟩ : BufTy).Contents (Elt F) → (⟨S1000, .i32⟩ : BufTy).Contents (Elt F)),
    binary main_call1_v8 main_call1_v9 main_call1_v10 (cmpi .ne : (⟨S1000, .i32⟩ : BufTy).Contents (Elt F) → (⟨S1000, .i32⟩ : BufTy).Contents (Elt F) → (⟨S1000, .i1⟩ : BufTy).Contents (Elt F)),
    binary main_call1_v6 main_call1_v10 main_call1_v11 (andi : (⟨S1000, .i1⟩ : BufTy).Contents (Elt F) → (⟨S1000, .i1⟩ : BufTy).Contents (Elt F) → (⟨S1000, .i1⟩ : BufTy).Contents (Elt F)),
    nullary main_call1_c_0 (constantI S_ 32 1#32),
    unary main_call1_c_0 main_call1_v12 (broadcastInDim S1000 ![] bcast_S_S1000 : (⟨S_, .i32⟩ : BufTy).Contents (Elt F) → (⟨S1000, .i32⟩ : BufTy).Contents (Elt F)),
    binary main_call1_v2 main_call1_v12 main_call1_v13 (subi : (⟨S1000, .i32⟩ : BufTy).Contents (Elt F) → (⟨S1000, .i32⟩ : BufTy).Contents (Elt F) → (⟨S1000, .i32⟩ : BufTy).Contents (Elt F)),
    ternary main_call1_v11 main_call1_v13 main_call1_v2 main_v15 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
    nullary main_c_3 (constantI S_ 32 0#32),
    binary main_arg1 main_c_3 main_v16 ((fun x v => Host.reduce IntOp.addi x v reducesTo_S10000x1000_S1000_d0 h_S_) : (⟨S10000x1000, .i32⟩ : BufTy).Contents (Elt F) → (⟨S_, .i32⟩ : BufTy).Contents (Elt F) → (⟨S1000, .i32⟩ : BufTy).Contents (Elt F)),
    nullary main_c_4 (constantI S_ 32 0#32),
    unary main_c_4 main_v17 (broadcastInDim S1000 ![] bcast_S_S1000 : (⟨S_, .i32⟩ : BufTy).Contents (Elt F) → (⟨S1000, .i32⟩ : BufTy).Contents (Elt F)),
    binary main_v16 main_v17 main_v18 (cmpi .ne : (⟨S1000, .i32⟩ : BufTy).Contents (Elt F) → (⟨S1000, .i32⟩ : BufTy).Contents (Elt F) → (⟨S1000, .i1⟩ : BufTy).Contents (Elt F)),
    nullary main_c_5 (constantI S_ 32 0#32),
    unary main_c_5 main_v19 (broadcastInDim S1000 ![] bcast_S_S1000 : (⟨S_, .i32⟩ : BufTy).Contents (Elt F) → (⟨S1000, .i32⟩ : BufTy).Contents (Elt F)),
    binary main_v15 main_v19 main_v20 (cmpi .slt : (⟨S1000, .i32⟩ : BufTy).Contents (Elt F) → (⟨S1000, .i32⟩ : BufTy).Contents (Elt F) → (⟨S1000, .i1⟩ : BufTy).Contents (Elt F)),
    nullary main_c_6 (constantI S_ 32 128#32),
    unary main_c_6 main_v21 (broadcastInDim S1000 ![] bcast_S_S1000 : (⟨S_, .i32⟩ : BufTy).Contents (Elt F) → (⟨S1000, .i32⟩ : BufTy).Contents (Elt F)),
    binary main_v15 main_v21 main_v22 (addi : (⟨S1000, .i32⟩ : BufTy).Contents (Elt F) → (⟨S1000, .i32⟩ : BufTy).Contents (Elt F) → (⟨S1000, .i32⟩ : BufTy).Contents (Elt F)),
    ternary main_v20 main_v22 main_v15 main_v23 (select : (⟨S1000, .i1⟩ : BufTy).Contents (Elt F) → (⟨S1000, .i32⟩ : BufTy).Contents (Elt F) → (⟨S1000, .i32⟩ : BufTy).Contents (Elt F) → (⟨S1000, .i32⟩ : BufTy).Contents (Elt F)),
    unary main_v23 main_v24 (broadcastInDim S1000x1 ![0] bcast_S1000_S1000x1_0 : (⟨S1000, .i32⟩ : BufTy).Contents (Elt F) → (⟨S1000x1, .i32⟩ : BufTy).Contents (Elt F)),
    binary main_v13 main_v24 main_v25 ((fun x i => Host.gather gather_S128_S1000x1_S1000_n_0_n_n_0_1_1 x i) : (⟨S128, .f32⟩ : BufTy).Contents (Elt F) → (⟨S1000x1, .i32⟩ : BufTy).Contents (Elt F) → (⟨S1000, .f32⟩ : BufTy).Contents (Elt F)),
    nullary main_cst_7 (constant S_ .f32 0x00000000#32),
    unary main_cst_7 main_call2_v0 (id : (⟨S_, .f32⟩ : BufTy).Contents (Elt F) → (⟨S_, .f32⟩ : BufTy).Contents (Elt F)),
    unary main_call2_v0 main_call2_v1 (broadcastInDim S1000 ![] bcast_S_S1000 : (⟨S_, .f32⟩ : BufTy).Contents (Elt F) → (⟨S1000, .f32⟩ : BufTy).Contents (Elt F)),
    ternary main_v18 main_v25 main_call2_v1 main_v26 (select : (⟨S1000, .i1⟩ : BufTy).Contents (Elt F) → (⟨S1000, .f32⟩ : BufTy).Contents (Elt F) → (⟨S1000, .f32⟩ : BufTy).Contents (Elt F) → (⟨S1000, .f32⟩ : BufTy).Contents (Elt F)),
    nullary main_cst_8 (constant S_ .f32 0x00000000#32),
    binary main_v26 main_cst_8 main_v27 ((fun x v => Host.reduceAdd x v reducesTo_S1000_S_d0 h_S_) : (⟨S1000, .f32⟩ : BufTy).Contents (Elt F) → (⟨S_, .f32⟩ : BufTy).Contents (Elt F) → (⟨S_, .f32⟩ : BufTy).Contents (Elt F)),
    unary main_v18 main_v28 ((extui 32 · natLt_1_32) : (⟨S1000, .i1⟩ : BufTy).Contents (Elt F) → (⟨S1000, .i32⟩ : BufTy).Contents (Elt F)),
    nullary main_c_9 (constantI S_ 32 0#32),
    binary main_v28 main_c_9 main_v29 ((fun x v => Host.reduce IntOp.addi x v reducesTo_S1000_S_d0 h_S_) : (⟨S1000, .i32⟩ : BufTy).Contents (Elt F) → (⟨S_, .i32⟩ : BufTy).Contents (Elt F) → (⟨S_, .i32⟩ : BufTy).Contents (Elt F)),
    nullary main_c_10 (constantI S_ 32 4032#32),
    binary main_v29 main_c_10 main_v30 (muli : (⟨S_, .i32⟩ : BufTy).Contents (Elt F) → (⟨S_, .i32⟩ : BufTy).Contents (Elt F) → (⟨S_, .i32⟩ : BufTy).Contents (Elt F)),
    unary main_v30 main_v31 (sitofp .f32 : (⟨S_, .i32⟩ : BufTy).Contents (Elt F) → (⟨S_, .f32⟩ : BufTy).Contents (Elt F)),
    binary main_v27 main_v31 main_v32 (Host.divf : (⟨S_, .f32⟩ : BufTy).Contents (Elt F) → (⟨S_, .f32⟩ : BufTy).Contents (Elt F) → (⟨S_, .f32⟩ : BufTy).Contents (Elt F)),
    unary main_v32 main_v33 (Host.negf : (⟨S_, .f32⟩ : BufTy).Contents (Elt F) → (⟨S_, .f32⟩ : BufTy).Contents (Elt F)) ]

/-- The whole program's sixty-nine operations, in order. -/
abbrev ops : List (HloOp τ sig (Elt F)) := opsA ++ opsB

set_option maxRecDepth 8192 in
/-- The host program is that straight line: the called functions' bodies substituted at their calls and the
    sequencing re-associated, both sides are one chain of steps. -/
theorem main_eq (c : Dev nD) : main (F := F) c = seq ops := by
  simp only [main, fn_argmax.body, fn_where.body, fn_floor_divide.body, fn_where_0.body, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  ⟨nullary_bufs_sub .., unary_bufs_sub .., binary_bufs_sub .., unary_bufs_sub .., binary_bufs_sub .., nullary_bufs_sub .., binary_bufs_sub .., nullary_bufs_sub .., nullary_bufs_sub .., binary_bufs_sub .., unary_bufs_sub .., nullary_bufs_sub .., unary_bufs_sub .., ternary_bufs_sub .., nullary_bufs_sub .., binary_bufs_sub .., binary_bufs_sub .., unary_bufs_sub ..⟩

theorem opsB_sub : (opsB : List (HloOp τ sig (Elt F))).Forall fun op => op.bufs ⊆ tcRefs τ sig :=
  ⟨nullary_bufs_sub .., nullary_bufs_sub .., nullary_bufs_sub .., quaternary_bufs_sub .., quaternary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., nullary_bufs_sub .., binary_bufs_sub .., nullary_bufs_sub .., binary_bufs_sub .., unary_bufs_sub .., binary_bufs_sub .., unary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp opsA_sub op h, List.forall_iff_forall_mem.mp opsB_sub op h]

/-- From any memory with zero counters every weakly fair execution of the host program terminates, and every
    buffer ends at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's per-projection term exactly as its host program spells it: one whole matrix product per projection
  over all 16384 features, both sums over the 64 × 64 group pairs taken in one reduction, the diagonal picked out by
  a mask of equal row and column numbers.
-/
import proofs.«164797_j18769007083970_1_alg».proof.ReferenceIdeal
import Idealize.ShloMosaic.PureOps.Ideal

noncomputable section

namespace Cert.Spec

open Idealize.ShloMosaic Cert.ReferenceIdeal Cert.ReferenceIdeal.Facts₀

/-- The reference's operations from the weights to the 128 per-projection terms, composed. -/
def refPerProj [Cert.ReferenceIdeal.Facts] (W : FVec Ideal S128x64x16384 .f32) : FVec Ideal S128 .f32 :=
  let cst : FVec Ideal S_ .f32 := constant S_ .f32 0x3727C5AC#32
  let v0 : FVec Ideal S128x64x16384 .f32 := broadcastInDim S128x64x16384 ![] bcast_S_S128x64x16384 cst
  let v1 : FVec Ideal S128x64x16384 .f32 := maximumf W v0
  let v2 : FVec Ideal S128x64x16384 .f32 := Host.log v1
  let v3 : FVec Ideal S128x64x64 .f32 := Host.dotGeneral dot_S128x64x16384_S128x64x16384_S128x64x64_2_2_1_1_0_0 none W v2
  let cst0 : FVec Ideal S_ .f32 := constant S_ .f32 0x00000000#32
  let v4 : FVec Ideal S128 .f32 := Host.reduceAdd v3 cst0 reducesTo_S128x64x64_S128_d1_2 h_S_
  let v5 : IVec S64x64 32 := iotaInDim S64x64 32 0
  let v6 : IVec S64x64 32 := iotaInDim S64x64 32 1
  let v7 : IVec S64x64 1 := cmpi .eq v5 v6
  let v8 : IVec S128x64x64 1 := broadcastInDim S128x64x64 ![1, 2] bcast_S64x64_S128x64x64_1_2 v7
  let cst1 : FVec Ideal S_ .f32 := constant S_ .f32 0x00000000#32
  let v9 : FVec Ideal S128x64x64 .f32 := broadcastInDim S128x64x64 ![] bcast_S_S128x64x64 cst1
  let v10 : FVec Ideal S128x64x64 .f32 := select v8 v3 v9
  let cst2 : FVec Ideal S_ .f32 := constant S_ .f32 0x00000000#32
  let v11 : FVec Ideal S128 .f32 := Host.reduceAdd v10 cst2 reducesTo_S128x64x64_S128_d1_2 h_S_
  let v12 : FVec Ideal S128 .f32 := subf v4 v11
  Host.negf v12

end Cert.Spec

end
-- ==== Proof.RefRun.lean ====
/-
  The reference's run read back: every weakly fair execution of its host program terminates with the result at
  the shared class-wise tail applied to the reference's per-projection terms of the weights, and the three
  argument arrays unchanged. The sixty-nine operations are read in two stretches: the first eighteen compose to the
  per-projection terms, the remaining fifty-one to the tail over whatever the first stretch left.
-/
import proofs.«164797_j18769007083970_1_alg».proof.Proof.RefRunOps
import proofs.«164797_j18769007083970_1_alg».proof.Proof.Tail
import proofs.«164797_j18769007083970_1_alg».proof.Proof.RefTerm

noncomputable section

namespace Cert.ReferenceIdeal.RefRun

open Cert.ReferenceIdeal Idealize.ShloMosaic Idealize.ShloMosaic.TcCoe Idealize.SL.Sem Idealize.ShloMosaic.StableHlo

variable [Cert.ReferenceIdeal.Facts]

/-! ## The first stretch -/

/-- The first stretch at the per-projection buffer: the eighteen operations composed are the reference's
    per-projection term of the weights. -/
theorem perProj_eq (V : Valuation τ sig (Elt Ideal)) :
    after (opsA (F := Ideal)) V (Proc.devRef .tc main_v13) = Cert.Spec.refPerProj (V (Proc.devRef .tc main_arg0)) := by
  after_results
  rfl

/-- The first stretch writes none of the three argument arrays. -/
theorem opsA_arg0 (V : Valuation τ sig (Elt Ideal)) :
    after (opsA (F := Ideal)) V (Proc.devRef .tc main_arg0) = V (Proc.devRef .tc main_arg0) := by
  after_results
theorem opsA_arg1 (V : Valuation τ sig (Elt Ideal)) :
    after (opsA (F := Ideal)) V (Proc.devRef .tc main_arg1) = V (Proc.devRef .tc main_arg1) := by
  after_results
theorem opsA_arg2 (V : Valuation τ sig (Elt Ideal)) :
    after (opsA (F := Ideal)) V (Proc.devRef .tc main_arg2) = V (Proc.devRef .tc main_arg2) := by
  after_results

/-! ## The two stretches joined -/

/-- Running one list after another is running their concatenation. -/
private theorem after_app (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

/-- The whole line is the second stretch run from what the first leaves. -/
theorem after_ops (V : Valuation τ sig (Elt Ideal)) :
    after (ops (F := Ideal)) V = after (opsB (F := Ideal)) (after (opsA (F := Ideal)) V) :=
  after_app _ _ V

variable [Cert.KernelIdeal.Facts]

/-! ## The second stretch -/
attribute [local irreducible] Host.reduce Host.reduce2 Host.gather in
set_option maxHeartbeats 1000000 in
/-- The second stretch at the result buffer, from any contents: the fifty-one operations composed are the shared
    tail of whatever the per-projection buffer and the two integer arguments hold. The two spellings differ only in
    which copy of the shapes, of the arg-max reducer and of the gather's dimension record they name; the reductions
    and the gather themselves are kept folded while the two are compared. -/
theorem tailB_value (W : Valuation τ sig (Elt Ideal)) :
    after (opsB (F := Ideal)) W (Proc.devRef .tc main_v33)
      = Cert.Spec.tail (W (Proc.devRef .tc main_v13)) (W (Proc.devRef .tc main_arg1)) (W (Proc.devRef .tc main_arg2)) := by
  generalize hR : Cert.Spec.tail (W (Proc.devRef .tc main_v13)) (W (Proc.devRef .tc main_arg1)) (W (Proc.devRef .tc main_arg2)) = R
  after_results_simp
  subst hR
  rfl

/-- The second stretch writes none of the three argument arrays. -/
theorem tailB_arg0 (W : Valuation τ sig (Elt Ideal)) :
    after (opsB (F := Ideal)) W (Proc.devRef .tc main_arg0) = W (Proc.devRef .tc main_arg0) := by
  after_results_simp
theorem tailB_arg1 (W : Valuation τ sig (Elt Ideal)) :
    after (opsB (F := Ideal)) W (Proc.devRef .tc main_arg1) = W (Proc.devRef .tc main_arg1) := by
  after_results_simp
theorem tailB_arg2 (W : Valuation τ sig (Elt Ideal)) :
    after (opsB (F := Ideal)) W (Proc.devRef .tc main_arg2) = W (Proc.devRef .tc main_arg2) := by
  after_results_simp

/-- The result buffer after the whole line: the shared tail of the reference's per-projection terms. -/
theorem value (V : Valuation τ sig (Elt Ideal)) :
    after (ops (F := Ideal)) V (Proc.devRef .tc main_v33)
      = Cert.Spec.tail (Cert.Spec.refPerProj (V (Proc.devRef .tc main_arg0))) (V (Proc.devRef .tc main_arg1))
          (V (Proc.devRef .tc main_arg2)) := by
  rw [after_ops, tailB_value, perProj_eq, opsA_arg1, opsA_arg2]

/-- The whole line writes none of the three argument arrays. -/
theorem kept_arg0 (V : Valuation τ sig (Elt Ideal)) :
    after (ops (F := Ideal)) V (Proc.devRef .tc main_arg0) = V (Proc.devRef .tc main_arg0) := by
  rw [after_ops, tailB_arg0, opsA_arg0]
theorem kept_arg1 (V : Valuation τ sig (Elt Ideal)) :
    after (ops (F := Ideal)) V (Proc.devRef .tc main_arg1) = V (Proc.devRef .tc main_arg1) := by
  rw [after_ops, tailB_arg1, opsA_arg1]
theorem kept_arg2 (V : Valuation τ sig (Elt Ideal)) :
    after (ops (F := Ideal)) V (Proc.devRef .tc main_arg2) = V (Proc.devRef .tc main_arg2) := by
  rw [after_ops, tailB_arg2, opsA_arg2]

/-! ## The run -/

/-- From any memory with zero counters every weakly fair execution of the reference's host program terminates;
    the result is the shared tail of the reference's per-projection terms of the weights, and the three argument
    arrays are unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v33)
          = Cert.Spec.tail (Cert.Spec.refPerProj (m ((c.tc : Thread nD τ).loc main_arg0)))
              (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v33).trans (value (launchContents m c)),
      (h c main_arg0).trans (kept_arg0 (launchContents m c)),
      (h c main_arg1).trans (kept_arg1 (launchContents m c)),
      (h c main_arg2).trans (kept_arg2 (launchContents m c))⟩)
    (run_main m ρ)

/-- The frame alone: the program terminates and the three argument arrays are unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => (h c).2) (run m ρ)

end Cert.ReferenceIdeal.RefRun

end
-- ==== Proof.RefValue.lean ====
/-
  The reference's per-projection term, read index by index, is the specification's.

  Each of the reference's operations is read at an index: the clamp, the logarithm and the constants pointwise; the
  matrix product at `(p, g, h)` as the sum over the 16384 features; each sum over both group axes at projection `p` as the
  double sum over `(g, h)`; the mask of equal row and column numbers as "`g = h`", so that the masked double sum is the
  sum of the diagonal entries.
-/
import proofs.«164797_j18769007083970_1_alg».proof.Proof.Spec
import proofs.«164797_j18769007083970_1_alg».proof.Proof.RefTerm
import Idealize.ShloMosaic.PureOps.Ideal.Laws
import Idealize.ShloMosaic.Lib.ValueIdx
import Idealize.ShloMosaic.Lib.IdealHost

noncomputable section

namespace Cert.Spec

open Idealize.ShloMosaic Idealize.ShloMosaic.ValueIdx Cert.ReferenceIdeal Cert.ReferenceIdeal.Facts₀

/-! ## A sum over both group axes -/

/-- The pair `(g, h)` as the index `(p, g, h)`. -/
def pairEmb (p : Fin 128) : Fin 64 × Fin 64 ↪ S128x64x64.Idx :=
  ⟨fun x => ix3 p x.1 x.2, fun x y e => Prod.ext (congrFun e 1) (congrFun e 2)⟩

/-- Dropping the two group axes of `(p, g, h)` leaves `p`. -/
theorem drop_ix3 (hR : S128x64x64.ReducesTo [1, 2] S128) (p : Fin 128) (g h : Fin 64) :
    hR.drop (ix3 p g h) = ix1 p := by
  funext b
  match b with
  | ⟨0, _⟩ => rfl

/-- An index that drops to `p` has `p` as its first coordinate. -/
theorem eq_ix3_of_drop (hR : S128x64x64.ReducesTo [1, 2] S128) (p : Fin 128) (i : S128x64x64.Idx)
    (e : hR.drop i = ix1 p) : i = ix3 p (i 1) (i 2) := by
  have h0 : (i 0).val = p.val := congrArg (fun f : S128.Idx => (f 0).val) e
  funext a
  match a with
  | ⟨0, _⟩ => exact Fin.ext h0
  | ⟨1, _⟩ => rfl
  | ⟨2, _⟩ => rfl

/-- The indices that a sum over both group axes collects at projection `p` are exactly the `(p, g, h)`. -/
theorem filter_drop (hR : S128x64x64.ReducesTo [1, 2] S128) (p : Fin 128) :
    Finset.univ.filter (fun i : S128x64x64.Idx => hR.drop i = ix1 p) = Finset.univ.map (pairEmb p) := by
  ext i
  simp only [Finset.mem_filter, Finset.mem_univ, true_and, Finset.mem_map]
  exact ⟨fun e => ⟨(i 1, i 2), (eq_ix3_of_drop hR p i e).symm⟩, fun ⟨x, hx⟩ => hx ▸ drop_ix3 hR p x.1 x.2⟩

/-- The host's sum over both group axes, at projection `p`: the initial value plus the double sum over `(g, h)`. -/
theorem hostReduceAdd_pairs (hR : S128x64x64.ReducesTo [1, 2] S128) (x : S128x64x64.Idx → EReal) (init : EReal)
    (p : Fin 128) :
    Ideal.hostReduceAdd hR x init (ix1 p) = init + ∑ g : Fin 64, ∑ h : Fin 64, x (ix3 p g h) := by
  unfold Ideal.hostReduceAdd
  rw [filter_drop hR p, Finset.sum_map, Fintype.sum_prod_type]
  rfl

/-! ## The mask of equal row and column numbers -/

/-- Two group numbers, as 32-bit words, are equal words exactly when they are equal. -/
theorem cmpi_eq_ofNat (g h : Fin 64) :
    IntOp.cmpi .eq (BitVec.ofNat 32 g.val) (BitVec.ofNat 32 h.val) = if g = h then 1#1 else 0#1 := by
  have key : BitVec.ofNat 32 g.val = BitVec.ofNat 32 h.val → g = h := fun e => by
    have e' := congrArg BitVec.toNat e
    rw [BitVec.toNat_ofNat, BitVec.toNat_ofNat, Nat.mod_eq_of_lt (by have := g.isLt; omega),
      Nat.mod_eq_of_lt (by have := h.isLt; omega)] at e'
    exact Fin.ext e'
  unfold IntOp.cmpi
  by_cases e : g = h
  · subst e
    simp
  · rw [if_neg e]
    have ne : BitVec.ofNat 32 g.val ≠ BitVec.ofNat 32 h.val := fun x => e (key x)
    rw [beq_eq_false_iff_ne.mpr ne]
    rfl

section
variable [Cert.ReferenceIdeal.Facts]

/-- The mask at `(p, g, h)` is the comparison of the words of `g` and `h`. -/
theorem mask_apply (p : Fin 128) (g h : Fin 64) :
    broadcastInDim S128x64x64 ![1, 2] bcast_S64x64_S128x64x64_1_2
        (cmpi .eq (iotaInDim S64x64 32 0) (iotaInDim S64x64 32 1)) (ix3 p g h)
      = if g = h then 1#1 else 0#1 := by
  refine Eq.trans ?_ (cmpi_eq_ofNat g h)
  rfl

/-- Selecting by the mask against zero keeps the diagonal entries and nothing else. -/
theorem select_mask_apply (V : FVec Ideal S128x64x64 .f32) (p : Fin 128) (g h : Fin 64) :
    select (broadcastInDim S128x64x64 ![1, 2] bcast_S64x64_S128x64x64_1_2
          (cmpi .eq (iotaInDim S64x64 32 0) (iotaInDim S64x64 32 1))) V
        (broadcastInDim S128x64x64 ![] bcast_S_S128x64x64 (constant (F := Ideal) S_ .f32 0x00000000#32)) (ix3 p g h)
      = if g = h then V (ix3 p g h) else 0 := by
  rw [select_apply, mask_apply, broadcastInDim_scalar_apply, constant_apply, Ideal.ofBits_zero_f32]
  by_cases e : g = h
  · rw [if_pos e, if_pos e, select_one]
  · rw [if_neg e, if_neg e, select_zero]

/-! ## The matrix product at an index -/

/-- The batch axis of either operand is axis 0. -/
theorem mem_batch_l : (0 : Fin S128x64x16384.rank) ∈ (dot_S128x64x16384_S128x64x16384_S128x64x64_2_2_1_1_0_0).lhsBatch := List.mem_singleton.mpr rfl
theorem mem_batch_r : (0 : Fin S128x64x16384.rank) ∈ (dot_S128x64x16384_S128x64x16384_S128x64x64_2_2_1_1_0_0).rhsBatch := List.mem_singleton.mpr rfl
/-- Axis 1 of either operand is free. -/
theorem not_mem_batch_l : ¬(1 : Fin S128x64x16384.rank) ∈ (dot_S128x64x16384_S128x64x16384_S128x64x64_2_2_1_1_0_0).lhsBatch :=
  fun h => absurd (List.mem_singleton.mp h) (by decide)
theorem not_mem_batch_r : ¬(1 : Fin S128x64x16384.rank) ∈ (dot_S128x64x16384_S128x64x16384_S128x64x64_2_2_1_1_0_0).rhsBatch :=
  fun h => absurd (List.mem_singleton.mp h) (by decide)
theorem mem_free_l : (1 : Fin S128x64x16384.rank) ∈ (dot_S128x64x16384_S128x64x16384_S128x64x64_2_2_1_1_0_0).lhsNonContracting := List.mem_singleton.mpr rfl
theorem mem_free_r : (1 : Fin S128x64x16384.rank) ∈ (dot_S128x64x16384_S128x64x16384_S128x64x64_2_2_1_1_0_0).rhsNonContracting := List.mem_singleton.mpr rfl

/-- The left operand's index at result index `i`: the batch coordinate, the row coordinate, -/
theorem lhs_0 (i : S128x64x64.Idx) (q : (dot_S128x64x16384_S128x64x16384_S128x64x64_2_2_1_1_0_0).contr.Idx) :
    ((dot_S128x64x16384_S128x64x16384_S128x64x64_2_2_1_1_0_0).lhsIdx i q 0).val = (i 0).val := by
  unfold DotDims.lhsIdx
  rw [dif_pos mem_batch_l]
  rfl

theorem lhs_1 (i : S128x64x64.Idx) (q : (dot_S128x64x16384_S128x64x16384_S128x64x64_2_2_1_1_0_0).contr.Idx) :
    ((dot_S128x64x16384_S128x64x16384_S128x64x64_2_2_1_1_0_0).lhsIdx i q 1).val = (i 1).val := by
  unfold DotDims.lhsIdx
  rw [dif_neg not_mem_batch_l, dif_pos mem_free_l]
  rfl

/-- and the right operand's: the batch coordinate, the column coordinate. -/
theorem rhs_0 (i : S128x64x64.Idx) (q : (dot_S128x64x16384_S128x64x16384_S128x64x64_2_2_1_1_0_0).contr.Idx) :
    ((dot_S128x64x16384_S128x64x16384_S128x64x64_2_2_1_1_0_0).rhsIdx i q 0).val = (i 0).val := by
  unfold DotDims.rhsIdx
  rw [dif_pos mem_batch_r]
  rfl

theorem rhs_1 (i : S128x64x64.Idx) (q : (dot_S128x64x16384_S128x64x16384_S128x64x64_2_2_1_1_0_0).contr.Idx) :
    ((dot_S128x64x16384_S128x64x16384_S128x64x64_2_2_1_1_0_0).rhsIdx i q 1).val = (i 2).val := by
  unfold DotDims.rhsIdx
  rw [dif_neg not_mem_batch_r, dif_pos mem_free_r]
  rfl

/-- The matrix product at `(p, g, h)`: the sum over the features `k` of the left operand at `(p, g, k)` times the
right operand at `(p, h, k)`. -/
theorem dot_apply (A B : FVec Ideal S128x64x16384 .f32) (p : Fin 128) (g h : Fin 64) :
    Host.dotGeneral (F := Ideal) dot_S128x64x16384_S128x64x16384_S128x64x64_2_2_1_1_0_0 none A B (ix3 p g h)
      = ∑ k : Fin 16384, A (ix3 p g k) * B (ix3 p h k) := by
  simp only [Host.dotGeneral]
  rw [Ideal.dotGeneral_apply,
    ← Equiv.sum_comp (ValueIdx.contrEquiv1 dot_S128x64x16384_S128x64x16384_S128x64x64_2_2_1_1_0_0 16384 rfl rfl).symm]
  refine Finset.sum_congr rfl fun k _ => ?_
  have hk := ValueIdx.contrEquiv1_symm_val dot_S128x64x16384_S128x64x16384_S128x64x64_2_2_1_1_0_0 16384 rfl rfl k
  have el : (dot_S128x64x16384_S128x64x16384_S128x64x64_2_2_1_1_0_0).lhsIdx (ix3 p g h)
      ((ValueIdx.contrEquiv1 dot_S128x64x16384_S128x64x16384_S128x64x64_2_2_1_1_0_0 16384 rfl rfl).symm k) = ix3 p g k :=
    funext fun a => Fin.ext (by
      match a with
      | ⟨0, _⟩ => exact lhs_0 _ _
      | ⟨1, _⟩ => exact lhs_1 _ _
      | ⟨2, _⟩ => exact ((dot_S128x64x16384_S128x64x16384_S128x64x64_2_2_1_1_0_0).lhsIdx_val_of_single rfl _ _).trans hk)
  have er : (dot_S128x64x16384_S128x64x16384_S128x64x64_2_2_1_1_0_0).rhsIdx (ix3 p g h)
      ((ValueIdx.contrEquiv1 dot_S128x64x16384_S128x64x16384_S128x64x64_2_2_1_1_0_0 16384 rfl rfl).symm k) = ix3 p h k :=
    funext fun a => Fin.ext (by
      match a with
      | ⟨0, _⟩ => exact rhs_0 _ _
      | ⟨1, _⟩ => exact rhs_1 _ _
      | ⟨2, _⟩ => exact ((dot_S128x64x16384_S128x64x16384_S128x64x64_2_2_1_1_0_0).rhsIdx_val_of_single rfl _ _).trans hk)
  rw [el, er]

/-! ## The reference's stages -/

/-- The clamped logarithm at `(p, h, k)`. -/
theorem clog_apply (W : FVec Ideal S128x64x16384 .f32) (p : Fin 128) (h : Fin 64) (k : Fin 16384) :
    Host.log (F := Ideal) (maximumf W (broadcastInDim S128x64x16384 ![] bcast_S_S128x64x16384
        (constant (F := Ideal) S_ .f32 0x3727C5AC#32))) (ix3 p h k) = clog W p h k := by
  show Ideal.log (max (W (ix3 p h k)) (broadcastInDim S128x64x16384 ![] bcast_S_S128x64x16384
        (constant (F := Ideal) S_ .f32 0x3727C5AC#32) (ix3 p h k))) = _
  rw [broadcastInDim_scalar_apply, constant_apply]
  rfl

/-- The matrix product of the weights with their clamped logarithms, at `(p, g, h)`, is the cross term. -/
theorem cross_apply (W : FVec Ideal S128x64x16384 .f32) (p : Fin 128) (g h : Fin 64) :
    Host.dotGeneral (F := Ideal) dot_S128x64x16384_S128x64x16384_S128x64x64_2_2_1_1_0_0 none W
        (Host.log (F := Ideal) (maximumf W (broadcastInDim S128x64x16384 ![] bcast_S_S128x64x16384
          (constant (F := Ideal) S_ .f32 0x3727C5AC#32)))) (ix3 p g h) = cross W p g h := by
  rw [dot_apply]
  exact Finset.sum_congr rfl fun k _ => congrArg (W (ix3 p g k) * ·) (clog_apply W p h k)

/-- A sum over both group axes from the zero constant, at projection `p`. -/
theorem reduce_zero_apply (x : FVec Ideal S128x64x64 .f32) (p : Fin 128) :
    Host.reduceAdd (F := Ideal) x (constant (F := Ideal) S_ .f32 0x00000000#32) reducesTo_S128x64x64_S128_d1_2 h_S_ (ix1 p)
      = ∑ g : Fin 64, ∑ h : Fin 64, x (ix3 p g h) := by
  rw [hostReduceAdd_apply, hostReduceAdd_pairs, constant_apply, Ideal.ofBits_zero_f32, zero_add]

/-- The reference's per-projection term is the specification's. -/
theorem refPerProj_eq (W : FVec Ideal Cert.ReferenceIdeal.S128x64x16384 .f32) :
    Cert.Spec.refPerProj W = Cert.Spec.perProj W := by
  funext j
  obtain ⟨p, rfl⟩ : ∃ p : Fin 128, j = ix1 p := ⟨j 0, eq_ix1 j⟩
  show _ = -((∑ g : Fin 64, ∑ h : Fin 64, cross W p g h) - ∑ g : Fin 64, cross W p g g)
  unfold refPerProj
  dsimp only
  show -(_ - _) = _
  rw [reduce_zero_apply, reduce_zero_apply]
  refine congrArg Neg.neg (congrArg₂ (· - ·) ?_ ?_)
  · exact Finset.sum_congr rfl fun g _ => Finset.sum_congr rfl fun h _ => cross_apply W p g h
  · refine Finset.sum_congr rfl fun g _ => ?_
    rw [Finset.sum_congr rfl fun h _ => select_mask_apply _ p g h, Finset.sum_ite_eq, if_pos (Finset.mem_univ g)]
    exact cross_apply W p g g

end

end Cert.Spec

end
-- ==== Proof.lean ====
/-
  The kernel and its jnp reference compute the same number over the extended reals.

  For weights `W` (128 projections × 64 groups × 16384 features) let `C[p,g,h] = ∑ₖ W[p,g,k] · log (max (W[p,h,k], ε))`.
  Both programs form, per projection, `t[p] = -(∑_{g,h} C[p,g,h] - ∑_g C[p,g,g])` and then apply one and the same
  chain of host operations to `t` and the two integer tables (per class: pick `t` at the arg-max group's projection,
  mask classes without a prototype, sum, divide by 4032 · the number of unmasked classes, negate).

  The kernel reaches `t` by a grid of 16 × 8 steps: for each block of 8 projections it walks the features in 8 tiles
  of 2048, adding each tile's 64 × 64 partial cross terms into an accumulator that the first tile's step resets; the
  last tile's step sums the accumulator over all group pairs, sums it against the 0/1 identity pattern, and writes
  `0 - (all - diagonal)` along the lanes of its 8 output rows; the host then takes lane 0 of every row. The reference
  forms `C` by one whole product and reduces over both group axes at once, picking the diagonal with a mask.
  Over the extended reals a change of float format is the identity, sums may be regrouped and reordered freely
  (a commutative monoid), `x · 0 = 0`, `x · 1 = x` and `0 - x = -x`; nothing else is used, so the inputs'
  finiteness is never opened. The idealized kernel is the kernel's own text read over the extended reals (no
  operation was replaced), so the idealization claim is `True`.
-/
import proofs.«164797_j18769007083970_1_alg».proof.Defs
import proofs.«164797_j18769007083970_1_alg».proof.Proof.Gen.Kernel.Frame
import proofs.«164797_j18769007083970_1_alg».proof.Proof.Gen.ReferenceIdeal
import proofs.«164797_j18769007083970_1_alg».proof.Proof.Gen.Pre_finite_inputs
import proofs.«164797_j18769007083970_1_alg».proof.Proof.KFinal
import proofs.«164797_j18769007083970_1_alg».proof.Proof.KTail
import proofs.«164797_j18769007083970_1_alg».proof.Proof.RefRun
import proofs.«164797_j18769007083970_1_alg».proof.Proof.RefValue
import proofs.«164797_j18769007083970_1_alg».proof.Proof.SpecLaws
import Idealize.ShloMosaic.Adequacy
import Idealize.ShloMosaic.Init

noncomputable section

namespace Cert.Proof

open Idealize.ShloMosaic Idealize.ShloMosaic.TcCoe Idealize.SL.Sem

/-- The kernel program's run, read: its result is the shared tail of the per-projection terms of its weights. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v22)
            = Cert.Spec.tail (Cert.Spec.perProj (m ((c.tc : Thread Cert.KernelIdeal.nD Cert.KernelIdeal.τ).loc Cert.KernelIdeal.main_arg0)))
                (m ((c.tc : Thread Cert.KernelIdeal.nD Cert.KernelIdeal.τ).loc Cert.KernelIdeal.main_arg1))
                (m ((c.tc : Thread Cert.KernelIdeal.nD Cert.KernelIdeal.τ).loc Cert.KernelIdeal.main_arg2))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  open Cert.KernelIdeal Cert.KernelIdeal.Gen Cert.KernelIdeal.KV in
  refine (θ_run defs _ _).mono (fun r h c => ⟨?_, ?_, ?_, ?_⟩) (run_main m ρ)
  · refine ((h c).2 main_v22 (Pipeline.mem_restRefs_of main_v22 (by decide) (by decide))).trans ?_
    refine (tail_eq m c _ (final m c)).trans ?_
    rw [outArr_lane0, Cert.Spec.kPerProj_eq]
  · exact ((h c).1 0).trans (((dats m 0 c).arrAt_in 0 rfl _).trans ((A_eq m c 0).trans (V_main_arg0 m c)))
  · exact ((h c).2 main_arg1 (Pipeline.mem_restRefs_of main_arg1 (by decide) (by decide))).trans (W_main_arg1 m (dats m) c)
  · exact ((h c).2 main_arg2 (Pipeline.mem_restRefs_of main_arg2 (by decide) (by decide))).trans (W_main_arg2 m (dats m) c)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefRun.run m ρ)

/-- Both programs end at the shared tail of the per-projection terms: the kernel's accumulated in tiles, the
    reference's from one whole product, equal entry by entry over the extended reals; the arguments agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2, Cert.Spec.refPerProj_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
